-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1048576 : Shape := ⟨1, ![1048576]⟩
abbrev S1048576x51 : Shape := ⟨2, ![1048576, 51]⟩
abbrev S51 : Shape := ⟨1, ![51]⟩
abbrev S_ : Shape := ⟨0, ![]⟩

class Facts : Prop where
  bcast_S_S1048576 : S_.BroadcastsInDim S1048576 (![] : Fin 0 → Fin S1048576.rank)
  reducesTo_S1048576_S_d0 : S1048576.ReducesTo [0] S_
  h_S_ : 0 < S_.numel
  bcast_S_S1048576x51 : S_.BroadcastsInDim S1048576x51 (![] : Fin 0 → Fin S1048576x51.rank)
  reducesTo_S1048576x51_S_d0_1 : S1048576x51.ReducesTo [0, 1] S_
  bcast_S_S51 : S_.BroadcastsInDim S51 (![] : Fin 0 → Fin S51.rank)
  reducesTo_S51_S_d0 : S51.ReducesTo [0] S_

variable [Facts]

def fn {F : FTy → Type} [FloatOps F] (main_arg0 : FVec F S1048576 .f32) (main_arg1 : FVec F S1048576x51 .f32) (main_arg2 : FVec F S51 .f32) (main_arg3 : IVec S1048576 32) : IVec S_ 1 :=
  let main_v0 : FVec F S1048576 .f32 := Host.absf main_arg0
  let main_cst : FVec F S_ .f32 := constant S_ .f32 0x7F800000#32
  let main_v1 : FVec F S1048576 .f32 := broadcastInDim S1048576 ![] bcast_S_S1048576 main_cst
  let main_v2 : IVec S1048576 1 := cmpf .olt main_v0 main_v1
  let main_c : IVec S_ 1 := constantI S_ 1 1#1
  let main_v3 : IVec S_ 1 := (fun x v => Host.reduce IntOp.andi x v reducesTo_S1048576_S_d0 h_S_) main_v2 main_c
  let main_v4 : FVec F S1048576x51 .f32 := Host.absf main_arg1
  let main_cst_0 : FVec F S_ .f32 := constant S_ .f32 0x7F800000#32
  let main_v5 : FVec F S1048576x51 .f32 := broadcastInDim S1048576x51 ![] bcast_S_S1048576x51 main_cst_0
  let main_v6 : IVec S1048576x51 1 := cmpf .olt main_v4 main_v5
  let main_c_1 : IVec S_ 1 := constantI S_ 1 1#1
  let main_v7 : IVec S_ 1 := (fun x v => Host.reduce IntOp.andi x v reducesTo_S1048576x51_S_d0_1 h_S_) main_v6 main_c_1
  let main_v8 : IVec S_ 1 := andi main_v3 main_v7
  let main_v9 : FVec F S51 .f32 := Host.absf main_arg2
  let main_cst_2 : FVec F S_ .f32 := constant S_ .f32 0x7F800000#32
  let main_v10 : FVec F S51 .f32 := broadcastInDim S51 ![] bcast_S_S51 main_cst_2
  let main_v11 : IVec S51 1 := cmpf .olt main_v9 main_v10
  let main_c_3 : IVec S_ 1 := constantI S_ 1 1#1
  let main_v12 : IVec S_ 1 := (fun x v => Host.reduce IntOp.andi x v reducesTo_S51_S_d0 h_S_) main_v11 main_c_3
  let main_v13 : IVec S_ 1 := andi main_v8 main_v12
  main_v13
-- ==== Kernel.lean ====
abbrev S1048576 : Shape := ⟨1, ![1048576]⟩
abbrev S1048576x51 : Shape := ⟨2, ![1048576, 51]⟩
abbrev S51 : Shape := ⟨1, ![51]⟩
abbrev S1048576x1 : Shape := ⟨2, ![1048576, 1]⟩
abbrev S1048576x2 : Shape := ⟨2, ![1048576, 2]⟩
abbrev S4096x2 : Shape := ⟨2, ![4096, 2]⟩
abbrev S4096x51 : Shape := ⟨2, ![4096, 51]⟩
abbrev S4096x1 : Shape := ⟨2, ![4096, 1]⟩
abbrev S1x51 : Shape := ⟨2, ![1, 51]⟩

abbrev nBuf : Space → Nat
  | .hbm => 9
  | .vmem => 7
  | .smem => 0
  | _ => 0

abbrev bufTy : (tb : Table) → Fin (tcTables nBuf tb) → BufTy
  | .hbm, ⟨0, _⟩ => ⟨S1048576, .f32⟩
  | .hbm, ⟨1, _⟩ => ⟨S1048576x51, .f32⟩
  | .hbm, ⟨2, _⟩ => ⟨S51, .f32⟩
  | .hbm, ⟨3, _⟩ => ⟨S1048576, .i32⟩
  | .hbm, ⟨4, _⟩ => ⟨S1048576, .f32⟩
  | .hbm, ⟨5, _⟩ => ⟨S1048576x1, .f32⟩
  | .hbm, ⟨6, _⟩ => ⟨S1048576x1, .f32⟩
  | .hbm, ⟨7, _⟩ => ⟨S1048576x2, .f32⟩
  | .hbm, ⟨8, _⟩ => ⟨S1048576x51, .f32⟩
  | .local _ .vmem, ⟨0, _⟩ => ⟨S4096x2, .f32⟩
  | .local _ .vmem, ⟨1, _⟩ => ⟨S4096x2, .f32⟩
  | .local _ .vmem, ⟨2, _⟩ => ⟨S4096x51, .f32⟩
  | .local _ .vmem, ⟨3, _⟩ => ⟨S4096x51, .f32⟩
  | .local _ .vmem, ⟨4, _⟩ => ⟨S51, .f32⟩
  | .local _ .vmem, ⟨5, _⟩ => ⟨S4096x51, .f32⟩
  | .local _ .vmem, ⟨6, _⟩ => ⟨S4096x51, .f32⟩
  | _, _ => ⟨S1048576, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x51 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S51 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x51 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S1048576_S1048576x1_0 : S1048576.BroadcastsInDim S1048576x1 (![0] : Fin 1 → Fin S1048576x1.rank)
  concatenates_S1048576x1_S1048576x1_S1048576x2_d1 : Shape.Concatenates [S1048576x1, S1048576x1] S1048576x2 1
  inb_S4096x2_S4096x2_0_0 : ∀ a, (![0, 0] : Fin 2 → Nat) a + S4096x2.size a ≤ S4096x2.size a
  h_S4096x2 : 0 < S4096x2.numel
  shapeCasts_S4096x2_S4096x2 : S4096x2.ShapeCasts S4096x2
  slices_S4096x2_o0_0_S4096x1 : S4096x2.Slices ![0, 0] S4096x1
  slices_S4096x2_o0_1_S4096x1 : S4096x2.Slices ![0, 1] S4096x1
  inb_S51_S51_0 : ∀ a, (![0] : Fin 1 → Nat) a + S51.size a ≤ S51.size a
  h_S51 : 0 < S51.numel
  inb_S4096x51_S4096x51_0_0 : ∀ a, (![0, 0] : Fin 2 → Nat) a + S4096x51.size a ≤ S4096x51.size a
  h_S4096x51 : 0 < S4096x51.numel
  shapeCasts_S51_S1x51 : S51.ShapeCasts S1x51
  broadcasts_S1x51_S4096x51 : S1x51.Broadcasts S4096x51
  broadcasts_S4096x1_S4096x51 : S4096x1.Broadcasts S4096x51
  iota_S1x51_d1_w32 : S1x51.Iotas .tc 32 [1]
  slices_S4096x51_o0_0_S4096x1 : S4096x51.Slices ![0, 0] S4096x1
  slices_S4096x51_o0_1_S4096x1 : S4096x51.Slices ![0, 1] S4096x1
  slices_S4096x51_o0_2_S4096x1 : S4096x51.Slices ![0, 2] S4096x1
  slices_S4096x51_o0_3_S4096x1 : S4096x51.Slices ![0, 3] S4096x1
  slices_S4096x51_o0_4_S4096x1 : S4096x51.Slices ![0, 4] S4096x1
  slices_S4096x51_o0_5_S4096x1 : S4096x51.Slices ![0, 5] S4096x1
  slices_S4096x51_o0_6_S4096x1 : S4096x51.Slices ![0, 6] S4096x1
  slices_S4096x51_o0_7_S4096x1 : S4096x51.Slices ![0, 7] S4096x1
  slices_S4096x51_o0_8_S4096x1 : S4096x51.Slices ![0, 8] S4096x1
  slices_S4096x51_o0_9_S4096x1 : S4096x51.Slices ![0, 9] S4096x1
  slices_S4096x51_o0_10_S4096x1 : S4096x51.Slices ![0, 10] S4096x1
  slices_S4096x51_o0_11_S4096x1 : S4096x51.Slices ![0, 11] S4096x1
  slices_S4096x51_o0_12_S4096x1 : S4096x51.Slices ![0, 12] S4096x1
  slices_S4096x51_o0_13_S4096x1 : S4096x51.Slices ![0, 13] S4096x1
  slices_S4096x51_o0_14_S4096x1 : S4096x51.Slices ![0, 14] S4096x1
  slices_S4096x51_o0_15_S4096x1 : S4096x51.Slices ![0, 15] S4096x1
  slices_S4096x51_o0_16_S4096x1 : S4096x51.Slices ![0, 16] S4096x1
  slices_S4096x51_o0_17_S4096x1 : S4096x51.Slices ![0, 17] S4096x1
  slices_S4096x51_o0_18_S4096x1 : S4096x51.Slices ![0, 18] S4096x1
  slices_S4096x51_o0_19_S4096x1 : S4096x51.Slices ![0, 19] S4096x1
  slices_S4096x51_o0_20_S4096x1 : S4096x51.Slices ![0, 20] S4096x1
  slices_S4096x51_o0_21_S4096x1 : S4096x51.Slices ![0, 21] S4096x1
  slices_S4096x51_o0_22_S4096x1 : S4096x51.Slices ![0, 22] S4096x1
  slices_S4096x51_o0_23_S4096x1 : S4096x51.Slices ![0, 23] S4096x1
  slices_S4096x51_o0_24_S4096x1 : S4096x51.Slices ![0, 24] S4096x1
  slices_S4096x51_o0_25_S4096x1 : S4096x51.Slices ![0, 25] S4096x1
  slices_S4096x51_o0_26_S4096x1 : S4096x51.Slices ![0, 26] S4096x1
  slices_S4096x51_o0_27_S4096x1 : S4096x51.Slices ![0, 27] S4096x1
  slices_S4096x51_o0_28_S4096x1 : S4096x51.Slices ![0, 28] S4096x1
  slices_S4096x51_o0_29_S4096x1 : S4096x51.Slices ![0, 29] S4096x1
  slices_S4096x51_o0_30_S4096x1 : S4096x51.Slices ![0, 30] S4096x1
  slices_S4096x51_o0_31_S4096x1 : S4096x51.Slices ![0, 31] S4096x1
  slices_S4096x51_o0_32_S4096x1 : S4096x51.Slices ![0, 32] S4096x1
  slices_S4096x51_o0_33_S4096x1 : S4096x51.Slices ![0, 33] S4096x1
  slices_S4096x51_o0_34_S4096x1 : S4096x51.Slices ![0, 34] S4096x1
  slices_S4096x51_o0_35_S4096x1 : S4096x51.Slices ![0, 35] S4096x1
  slices_S4096x51_o0_36_S4096x1 : S4096x51.Slices ![0, 36] S4096x1
  slices_S4096x51_o0_37_S4096x1 : S4096x51.Slices ![0, 37] S4096x1
  slices_S4096x51_o0_38_S4096x1 : S4096x51.Slices ![0, 38] S4096x1
  slices_S4096x51_o0_39_S4096x1 : S4096x51.Slices ![0, 39] S4096x1
  slices_S4096x51_o0_40_S4096x1 : S4096x51.Slices ![0, 40] S4096x1
  slices_S4096x51_o0_41_S4096x1 : S4096x51.Slices ![0, 41] S4096x1
  slices_S4096x51_o0_42_S4096x1 : S4096x51.Slices ![0, 42] S4096x1
  slices_S4096x51_o0_43_S4096x1 : S4096x51.Slices ![0, 43] S4096x1
  slices_S4096x51_o0_44_S4096x1 : S4096x51.Slices ![0, 44] S4096x1
  slices_S4096x51_o0_45_S4096x1 : S4096x51.Slices ![0, 45] S4096x1
  slices_S4096x51_o0_46_S4096x1 : S4096x51.Slices ![0, 46] S4096x1
  slices_S4096x51_o0_47_S4096x1 : S4096x51.Slices ![0, 47] S4096x1
  slices_S4096x51_o0_48_S4096x1 : S4096x51.Slices ![0, 48] S4096x1
  slices_S4096x51_o0_49_S4096x1 : S4096x51.Slices ![0, 49] S4096x1
  slices_S4096x51_o0_50_S4096x1 : S4096x51.Slices ![0, 50] S4096x1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x2.size a ≤ S1048576x2.size a
  hwx0_0 : ∀ i : grid0.Coords, EltTy.bits .f32 = 32 ∨ (Rect.block (s := S1048576x2) S4096x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x51.size a ≤ S1048576x51.size a
  hwx0_1 : ∀ i : grid0.Coords, EltTy.bits .f32 = 32 ∨ (Rect.block (s := S1048576x51) S4096x51.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S51.size a ≤ S51.size a
  hwx0_2 : ∀ i : grid0.Coords, EltTy.bits .f32 = 32 ∨ (Rect.block (s := S51) S51.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x51.size a ≤ S1048576x51.size a
  hwx0_3 : ∀ i : grid0.Coords, EltTy.bits .f32 = 32 ∨ (Rect.block (s := S1048576x51) S4096x51.size (cc0_transform_3 i) (hinb0_3 i)).WholeWords (EltTy.packing .f32)

variable [Facts₀]

abbrev win0_0 : Pipeline.Window sig grid0 :=
  Pipeline.Window.ofSpec (Memref.whole main_v3) S4096x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x51.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S51.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S4096x51.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1048576 : Shape := ⟨1, ![1048576]⟩
abbrev S1048576x51 : Shape := ⟨2, ![1048576, 51]⟩
abbrev S51 : Shape := ⟨1, ![51]⟩
abbrev S1048576x1 : Shape := ⟨2, ![1048576, 1]⟩
abbrev S1x51 : Shape := ⟨2, ![1, 51]⟩
abbrev S_ : Shape := ⟨0, ![]⟩
abbrev S53477376 : Shape := ⟨1, ![53477376]⟩
abbrev S53477376x1 : Shape := ⟨2, ![53477376, 1]⟩

abbrev nBuf : Space → Nat
  | .hbm => 92
  | .vmem => 0
  | .smem => 0
  | _ => 0

abbrev bufTy : (tb : Table) → Fin (tcTables nBuf tb) → BufTy
  | .hbm, ⟨0, _⟩ => ⟨S1048576, .f32⟩
  | .hbm, ⟨1, _⟩ => ⟨S1048576x51, .f32⟩
  | .hbm, ⟨2, _⟩ => ⟨S51, .f32⟩
  | .hbm, ⟨3, _⟩ => ⟨S1048576, .i32⟩
  | .hbm, ⟨4, _⟩ => ⟨S1048576, .f32⟩
  | .hbm, ⟨5, _⟩ => ⟨S1048576x1, .f32⟩
  | .hbm, ⟨6, _⟩ => ⟨S1x51, .f32⟩
  | .hbm, ⟨7, _⟩ => ⟨S_, .f32⟩
  | .hbm, ⟨8, _⟩ => ⟨S1x51, .f32⟩
  | .hbm, ⟨9, _⟩ => ⟨S1x51, .f32⟩
  | .hbm, ⟨10, _⟩ => ⟨S1048576x1, .f32⟩
  | .hbm, ⟨11, _⟩ => ⟨S1048576x51, .f32⟩
  | .hbm, ⟨12, _⟩ => ⟨S1048576x51, .f32⟩
  | .hbm, ⟨13, _⟩ => ⟨S1048576x51, .f32⟩
  | .hbm, ⟨14, _⟩ => ⟨S1048576x51, .f32⟩
  | .hbm, ⟨15, _⟩ => ⟨S1048576x51, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1048576x51, .f32⟩
  | .hbm, ⟨20, _⟩ => ⟨S1048576x51, .f32⟩
  | .hbm, ⟨21, _⟩ => ⟨S_, .f32⟩
  | .hbm, ⟨22, _⟩ => ⟨S1048576x51, .f32⟩
  | .hbm, ⟨23, _⟩ => ⟨S1048576x51, .f32⟩
  | .hbm, ⟨24, _⟩ => ⟨S_, .f32⟩
  | .hbm, ⟨25, _⟩ => ⟨S1048576x51, .f32⟩
  | .hbm, ⟨26, _⟩ => ⟨S1048576x51, .f32⟩
  | .hbm, ⟨27, _⟩ => ⟨S_, .f32⟩
  | .hbm, ⟨28, _⟩ => ⟨S1048576x51, .f32⟩
  | .hbm, ⟨29, _⟩ => ⟨S1048576x51, .f32⟩
  | .hbm, ⟨30, _⟩ => ⟨S1048576x51, .f32⟩
  | .hbm, ⟨31, _⟩ => ⟨S1048576x51, .i32⟩
  | .hbm, ⟨32, _⟩ => ⟨S1048576x51, .f32⟩
  | .hbm, ⟨33, _⟩ => ⟨S1048576x51, .i32⟩
  | .hbm, ⟨34, _⟩ => ⟨S_, .i32⟩
  | .hbm, ⟨35, _⟩ => ⟨S1048576x51, .i32⟩
  | .hbm, ⟨36, _⟩ => ⟨S1048576x51, .i1⟩
  | .hbm, ⟨37, _⟩ => ⟨S1048576x51, .i1⟩
  | .hbm, ⟨38, _⟩ => ⟨S1048576x51, .i1⟩
  | .hbm, ⟨39, _⟩ => ⟨S_, .i32⟩
  | .hbm, ⟨40, _⟩ => ⟨S1048576x51, .i32⟩
  | .hbm, ⟨41, _⟩ => ⟨S1048576x51, .i32⟩
  | .hbm, ⟨42, _⟩ => ⟨S1048576x51, .i32⟩
  | .hbm, ⟨43, _⟩ => ⟨S_, .i32⟩
  | .hbm, ⟨44, _⟩ => ⟨S1048576x51, .i32⟩
  | .hbm, ⟨45, _⟩ => ⟨S1048576x51, .i1⟩
  | .hbm, ⟨46, _⟩ => ⟨S1048576x51, .i1⟩
  | .hbm, ⟨47, _⟩ => ⟨S1048576x51, .i1⟩
  | .hbm, ⟨48, _⟩ => ⟨S_, .i32⟩
  | .hbm, ⟨49, _⟩ => ⟨S1048576x51, .i32⟩
  | .hbm, ⟨50, _⟩ => ⟨S1048576x51, .i32⟩
  | .hbm, ⟨51, _⟩ => ⟨S1048576x51, .i32⟩
  | .hbm, ⟨52, _⟩ => ⟨S1048576x51, .f32⟩
  | .hbm, ⟨53, _⟩ => ⟨S1048576x51, .f32⟩
  | .hbm, ⟨54, _⟩ => ⟨S1048576x51, .f32⟩
  | .hbm, ⟨55, _⟩ => ⟨S1048576x51, .f32⟩
  | .hbm, ⟨56, _⟩ => ⟨S1048576x51, .f32⟩
  | .hbm, ⟨57, _⟩ => ⟨S1048576x51, .f32⟩
  | .hbm, ⟨58, _⟩ => ⟨S1048576, .i32⟩
  | .hbm, ⟨59, _⟩ => ⟨S_, .i32⟩
  | .hbm, ⟨60, _⟩ => ⟨S1048576, .i32⟩
  | .hbm, ⟨61, _⟩ => ⟨S1048576, .i32⟩
  | .hbm, ⟨62, _⟩ => ⟨S1048576x1, .i32⟩
  | .hbm, ⟨63, _⟩ => ⟨S_, .f32⟩
  | .hbm, ⟨64, _⟩ => ⟨S53477376, .f32⟩
  | .hbm, ⟨65, _⟩ => ⟨S1048576x51, .i32⟩
  | .hbm, ⟨66, _⟩ => ⟨S1048576x51, .i32⟩
  | .hbm, ⟨67, _⟩ => ⟨S53477376, .i32⟩
  | .hbm, ⟨68, _⟩ => ⟨S53477376, .f32⟩
  | .hbm, ⟨69, _⟩ => ⟨S_, .i32⟩
  | .hbm, ⟨70, _⟩ => ⟨S53477376, .i32⟩
  | .hbm, ⟨71, _⟩ => ⟨S53477376, .i1⟩
  | .hbm, ⟨72, _⟩ => ⟨S_, .i32⟩
  | .hbm, ⟨73, _⟩ => ⟨S53477376, .i32⟩
  | .hbm, ⟨74, _⟩ => ⟨S53477376, .i32⟩
  | .hbm, ⟨75, _⟩ => ⟨S53477376, .i32⟩
  | .hbm, ⟨76, _⟩ => ⟨S53477376x1, .i32⟩
  | .hbm, ⟨77, _⟩ => ⟨S53477376, .f32⟩
  | .hbm, ⟨78, _⟩ => ⟨S1048576x51, .i32⟩
  | .hbm, ⟨79, _⟩ => ⟨S1048576x51, .i32⟩
  | .hbm, ⟨80, _⟩ => ⟨S53477376, .i32⟩
  | .hbm, ⟨81, _⟩ => ⟨S53477376, .f32⟩
  | .hbm, ⟨82, _⟩ => ⟨S_, .i32⟩
  | .hbm, ⟨83, _⟩ => ⟨S53477376, .i32⟩
  | .hbm, ⟨84, _⟩ => ⟨S53477376, .i1⟩
  | .hbm, ⟨85, _⟩ => ⟨S_, .i32⟩
  | .hbm, ⟨86, _⟩ => ⟨S53477376, .i32⟩
  | .hbm, ⟨87, _⟩ => ⟨S53477376, .i32⟩
  | .hbm, ⟨88, _⟩ => ⟨S53477376, .i32⟩
  | .hbm, ⟨89, _⟩ => ⟨S53477376x1, .i32⟩
  | .hbm, ⟨90, _⟩ => ⟨S53477376, .f32⟩
  | .hbm, ⟨91, _⟩ => ⟨S1048576x51, .f32⟩
  | _, _ => ⟨S1048576, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_c_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_9 : Ref sig .tc := ⟨.hbm, 69, rfl⟩
abbrev main_v49 : Ref sig .tc := ⟨.hbm, 70, rfl⟩
abbrev main_v50 : Ref sig .tc := ⟨.hbm, 71, rfl⟩
abbrev main_c_10 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_c_11 : Ref sig .tc := ⟨.hbm, 82, rfl⟩
abbrev main_v60 : Ref sig .tc := ⟨.hbm, 83, rfl⟩
abbrev main_v61 : Ref sig .tc := ⟨.hbm, 84, rfl⟩
abbrev main_c_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  bcast_S1048576_S1048576x1_0 : S1048576.BroadcastsInDim S1048576x1 (![0] : Fin 1 → Fin S1048576x1.rank)
  bcast_S51_S1x51_1 : S51.BroadcastsInDim S1x51 (![1] : Fin 1 → Fin S1x51.rank)
  bcast_S_S1x51 : S_.BroadcastsInDim S1x51 (![] : Fin 0 → Fin S1x51.rank)
  bcast_S1x51_S1048576x51_0_1 : S1x51.BroadcastsInDim S1048576x51 (![0, 1] : Fin 2 → Fin S1048576x51.rank)
  bcast_S1048576x1_S1048576x51_0_1 : S1048576x1.BroadcastsInDim S1048576x51 (![0, 1] : Fin 2 → Fin S1048576x51.rank)
  bcast_S_S1048576x51 : S_.BroadcastsInDim S1048576x51 (![] : Fin 0 → Fin S1048576x51.rank)
  bcast_S_S1048576 : S_.BroadcastsInDim S1048576 (![] : Fin 0 → Fin S1048576.rank)
  bcast_S_S53477376 : S_.BroadcastsInDim S53477376 (![] : Fin 0 → Fin S53477376.rank)
  shapeCasts_S1048576x51_S53477376 : S1048576x51.ShapeCasts S53477376
  bcast_S53477376_S53477376x1_0 : S53477376.BroadcastsInDim S53477376x1 (![0] : Fin 1 → Fin S53477376x1.rank)
  shapeCasts_S53477376_S1048576x51 : S53477376.ShapeCasts S1048576x51
  scatter_S53477376_S53477376x1_S53477376_n_0_0_1_wf : ScatterDims.WF S53477376 S53477376x1 S53477376 [] [0] [0] 1

variable [Facts₀]

def scatter_S53477376_S53477376x1_S53477376_n_0_0_1 : ScatterDims S53477376 S53477376x1 S53477376 where
  updateWindowDims := []
  insertedWindowDims := [0]
  scatterDimsToOperandDims := [0]
  indexVectorDim := 1
  wf := scatter_S53477376_S53477376x1_S53477376_n_0_0_1_wf

class Facts : Prop extends Facts₀ where

variable [Facts]
-- ==== Proof.Finite.lean ====
/-
  A passed finiteness test makes every float entry a real.

  The printed predicate is the conjunction of three tests, one per float array: every entry's
  absolute value is strictly below +∞, reduced over all axes by "and" from the constant 1. At the
  extended reals the f32 pattern 0x7F800000 is the top element ⊤, and |x| = max x (-x) is ⊤ exactly
  at x = ⊤ and at x = ⊥. So when the predicate answers 1, every single test answered 1, no entry is
  ⊤ or ⊥, and every entry is (the image of) a real number.
-/
import proofs.«121574_j38955353375480_2_alg».proof.Pre_finite_inputs
import Idealize.ShloMosaic.PureOps.Ideal
import Idealize.ShloMosaic.Lib.ReduceAll

noncomputable section

namespace Cert.Finite

open Idealize.ShloMosaic
open Cert.Pre_finite_inputs

/-- The scalar shape has one index. -/
instance : Subsingleton S_.Idx := ⟨fun a b => funext fun d => d.elim0⟩

/-- The f32 pattern 0x7F800000 (sign 0, exponent all ones, fraction 0) denotes +∞. -/
theorem ofBits_inf : Ideal.ofBits .f32 0x7F800000#32 = (⊤ : EReal) := by
  simp [Ideal.ofBits, Ideal.ieee]

/-- An extended real whose absolute value max x (-x) is strictly below ⊤ is a real:
    at ⊥ and at ⊤ the absolute value is ⊤, and ⊤ < ⊤ is false. -/
theorem real_of_abs_lt_top (x : EReal) (h : Ideal.cmp .olt (max x (-x)) ⊤ = 1#1) :
    ∃ r : ℝ, x = ((r : ℝ) : EReal) := by
  induction x using EReal.rec with
  | bot => simp [Ideal.cmp] at h
  | coe r => exact ⟨r, rfl⟩
  | top => simp [Ideal.cmp] at h

/-- One "all entries are finite" test that answered 1: every entry of the tested array is a real. -/
theorem real_of_all {s : Shape} {axes : List (Fin s.rank)} (x : FVec Ideal s .f32)
    (hb : S_.BroadcastsInDim s (![] : Fin 0 → Fin s.rank)) (hr : s.ReducesTo axes S_) (hu : 0 < S_.numel)
    (j : S_.Idx)
    (e : Host.reduce IntOp.andi
        (cmpf .olt (Host.absf x) (broadcastInDim s ![] hb (constant (F := Ideal) S_ .f32 0x7F800000#32)))
        (constantI S_ 1 1#1) hr hu j = 1#1)
    (i : s.Idx) : ∃ r : ℝ, x i = ((r : ℝ) : EReal) := by
  -- every element of the reduced array is 1
  have h1 := Host.reduce_andi_all _ _ hr hu j e i
  -- that element is the comparison |x i| < (the constant's value)
  have h2 : Ideal.cmp .olt (max (x i) (-(x i))) (Ideal.ofBits .f32 0x7F800000#32) = 1#1 := h1
  rw [ofBits_inf] at h2
  exact real_of_abs_lt_top (x i) h2

/-- The printed predicate answering 1 makes every entry of the three float inputs a real. -/
theorem real_inputs [Cert.Pre_finite_inputs.Facts]
    (a0 : FVec Ideal S1048576 .f32) (a1 : FVec Ideal S1048576x51 .f32)
    (a2 : FVec Ideal S51 .f32) (a3 : IVec S1048576 32)
    (h : Cert.Pre_finite_inputs.fn (F := Ideal) a0 a1 a2 a3 = fun _ => 1#1) :
    (∀ i, ∃ r : ℝ, a0 i = ((r : ℝ) : EReal)) ∧ (∀ i, ∃ r : ℝ, a1 i = ((r : ℝ) : EReal)) ∧
      (∀ i, ∃ r : ℝ, a2 i = ((r : ℝ) : EReal)) := by
  have h0 := congrFun h (fun d => d.elim0)
  dsimp only [Cert.Pre_finite_inputs.fn, andi] at h0
  rw [IntOp.andi_eq_one, IntOp.andi_eq_one] at h0
  obtain ⟨⟨e0, e1⟩, e2⟩ := h0
  exact ⟨fun i => real_of_all a0 _ _ _ _ e0 i, fun i => real_of_all a1 _ _ _ _ e1 i,
    fun i => real_of_all a2 _ _ _ _ e2 i⟩

end Cert.Finite

end
-- ==== Proof.KernelBlock.lean ====
/-
  What one grid point leaves in its output block, as a fold over the atoms.

  The body computes, for every row `y 0` of the block and every target bin `y 1`, the running sum over the 51 source
  atoms `k` of  p · max 0 (1 - |b - bin|),  where `p` is the row's probability of atom `k`, `b` is the atom's bin position
  ((clamp(reward + (discount · support k) · mask, -10, 10)) + 10) / width  and `bin` is the target bin's number as a
  float. The running sum starts at zero and takes the atoms in order.

  As a vector computation the stored value is a running sum of 51 whole-block terms (`vfold`), term `k` being column `k` of
  the probabilities spread over the row, times the hat of (column `k` of the bin positions spread over the row, minus the
  row of bin numbers spread over the rows): the body's nested payloads ARE that term (`payload_eq_vfold`). Read at a block
  index `y`, a column spread over its row is the column's entry in row `y 0`, the spread row of bin numbers is its entry
  `y 1`, and the bin position of cell `(y 0, k)` comes from the row's reward and mask and the atom's support. So the
  stored block at `y` is `foldUpTo (term …) 51`, the left fold of the atoms' contributions (`block_eq`).
-/
import proofs.«121574_j38955353375480_2_alg».proof.Proof.Gen.KernelIdeal.Skeleton
import Idealize.ShloMosaic.Lib.Pipeline.Value

noncomputable section

namespace Cert.KernelIdeal.HatValue

open Cert.KernelIdeal Cert.KernelIdeal.Gen Idealize.ShloMosaic Idealize.ShloMosaic.TcCoe Idealize.SL.Sem

variable {F : FTy → Type} [FloatOps F]

/-- An atom's bin position from the row's reward `r`, its mask `mk` and the atom's support `s`. -/
def binOps (r mk s : F .f32) : F .f32 :=
  FloatOps.divf (FloatOps.subf (FloatOps.minimumf (Scalar.ofBits .f32 0x41200000#32) (FloatOps.maximumf (Scalar.ofBits .f32 0xC1200000#32) (FloatOps.addf r (FloatOps.mulf (FloatOps.mulf (Scalar.ofBits .f32 0x3F7D70A4#32) s) mk)))) (Scalar.ofBits .f32 0xC1200000#32)) (Scalar.ofBits .f32 0x3ECCCCCD#32)

/-- One atom's contribution to one target bin: `p · max 0 (one - |b - bin|)` at the atom's bin position. -/
def atomOps (p r mk s bin one : F .f32) : F .f32 :=
  FloatOps.mulf p (FloatOps.maximumf (Scalar.ofBits .f32 0x00000000#32) (FloatOps.subf one (FloatOps.absf (FloatOps.subf (binOps r mk s) bin))))

/-- Entry `(y 0, k)` of the probability block. -/
abbrev cellAt (y : S4096x51.Idx) (k : ℕ) : S4096x51.Idx := fun a => match a with
  | ⟨0, _⟩ => ⟨(y 0).val, (y 0).isLt⟩
  | ⟨1, _⟩ => ⟨k % 51, Nat.mod_lt _ (by omega)⟩

/-- Entry `(y 0, c)` of the two-column block that holds each row's reward (column 0) and mask (column 1). -/
abbrev rowAt (y : S4096x51.Idx) (c : ℕ) : S4096x2.Idx := fun a => match a with
  | ⟨0, _⟩ => ⟨(y 0).val, (y 0).isLt⟩
  | ⟨1, _⟩ => ⟨c % 2, Nat.mod_lt _ (by omega)⟩

/-- Entry `k` of the supports. -/
abbrev atomAt (k : ℕ) : S51.Idx := fun a => match a with
  | ⟨0, _⟩ => ⟨k % 51, Nat.mod_lt _ (by omega)⟩

/-- The support entry of the atom of cell `z`. -/
abbrev atomOf (z : S4096x51.Idx) : S51.Idx := fun a => match a with
  | ⟨0, _⟩ => ⟨(z 1).val, (z 1).isLt⟩

/-- Entry `(0, y 1)` of the row of bin numbers. -/
abbrev laneAt (y : S4096x51.Idx) : S1x51.Idx := fun a => match a with
  | ⟨0, _⟩ => ⟨0, Nat.zero_lt_one⟩
  | ⟨1, _⟩ => ⟨(y 1).val, (y 1).isLt⟩

/-- Atom `k`'s contribution at block index `y`, from the three loaded blocks. -/
def term (P0 : Vec F S4096x51 .f32) (P1 : Vec F S4096x2 .f32) (P2 : Vec F S51 .f32) (y : S4096x51.Idx) (k : ℕ) : F .f32 :=
  atomOps (P0 (cellAt y k)) (P1 (rowAt y 0)) (P1 (rowAt y 1)) (P2 (atomAt k)) ((k0_pay3 (F := F)) (laneAt y))
    (Scalar.ofBits .f32 0x3F800000#32)

/-- The running sum of the first `n` contributions, from zero, in order. -/
def foldUpTo (f : ℕ → F .f32) : ℕ → F .f32
  | 0 => Scalar.ofBits .f32 0x00000000#32
  | n + 1 => FloatOps.addf (foldUpTo f n) (f n)

theorem foldUpTo_congr (f g : ℕ → F .f32) (n : ℕ) (h : ∀ k, k < n → f k = g k) : foldUpTo f n = foldUpTo g n := by
  induction n with
  | zero => rfl
  | succ n ih =>
    show FloatOps.addf (foldUpTo f n) (f n) = FloatOps.addf (foldUpTo g n) (g n)
    rw [ih (fun k hk => h k (Nat.lt_succ_of_lt hk)), h n (Nat.lt_succ_self n)]

/-! ## The stored value as a running sum of whole-block terms -/

/-- Column `k` of a block with 51 columns may be sliced out. -/
theorem slicesCol (k : ℕ) (hk : k < 51) : S4096x51.Slices ![0, k] S4096x1 :=
  ⟨rfl, fun a => match a with
    | ⟨0, _⟩ => by show 0 + 4096 ≤ 4096; omega
    | ⟨1, _⟩ => by show k + 1 ≤ 51; omega⟩

/-- The whole-block term of atom `k`: column `k` of the probabilities `P0` spread over the row, times the hat of column `k`
    of the bin positions `B` spread over the row less the row of bin numbers `I` spread over the rows. -/
def colVec (P0 B : Vec F S4096x51 .f32) (I : FVec F S1x51 .f32) (k : ℕ) (hs : S4096x51.Slices ![0, k] S4096x1) : FVec F S4096x51 .f32 :=
  mulf (broadcastTo S4096x51 (extractStridedSlice S4096x1 ![0, k] P0 hs) broadcasts_S4096x1_S4096x51)
    (maximumf (broadcast S4096x51 (Scalar.ofBits .f32 0x00000000#32))
      (subf (broadcast S4096x51 (Scalar.ofBits .f32 0x3F800000#32))
        (absf (subf (broadcastTo S4096x51 (extractStridedSlice S4096x1 ![0, k] B hs) broadcasts_S4096x1_S4096x51)
          (broadcastTo S4096x51 I broadcasts_S1x51_S4096x51)))))

/-- Atom `k`'s whole-block term from the three loaded blocks (zero past the last atom). -/
def colAt (P0 : Vec F S4096x51 .f32) (P1 : Vec F S4096x2 .f32) (P2 : Vec F S51 .f32) (k : ℕ) : FVec F S4096x51 .f32 :=
  if h : k < 51 then colVec P0 (k0_pay2 P1 P2) (k0_pay3 (F := F)) k (slicesCol k h)
  else broadcast S4096x51 (Scalar.ofBits .f32 0x00000000#32)

/-- The running sum of whole-block terms, from the zero block. -/
def vfold (f : ℕ → FVec F S4096x51 .f32) : ℕ → FVec F S4096x51 .f32
  | 0 => broadcast S4096x51 (Scalar.ofBits .f32 0x00000000#32)
  | n + 1 => addf (vfold f n) (f n)

set_option maxHeartbeats 4000000 in
/-- The body's stored value is the running sum of the 51 atoms' whole-block terms. -/
theorem payload_eq_vfold (P0 : Vec F S4096x51 .f32) (P1 : Vec F S4096x2 .f32) (P2 : Vec F S51 .f32) :
    k0_pay1 P0 (k0_pay2 P1 P2) (k0_pay3 (F := F)) (k0_pay52 P0 (k0_pay2 P1 P2) (k0_pay3 (F := F)) (k0_pay48 P0 (k0_pay2 P1 P2) (k0_pay3 (F := F)) (k0_pay44 P0 (k0_pay2 P1 P2) (k0_pay3 (F := F)) (k0_pay40 P0 (k0_pay2 P1 P2) (k0_pay3 (F := F)) (k0_pay36 P0 (k0_pay2 P1 P2) (k0_pay3 (F := F)) (k0_pay32 P0 (k0_pay2 P1 P2) (k0_pay3 (F := F)) (k0_pay28 P0 (k0_pay2 P1 P2) (k0_pay3 (F := F)) (k0_pay24 P0 (k0_pay2 P1 P2) (k0_pay3 (F := F)) (k0_pay20 P0 (k0_pay2 P1 P2) (k0_pay3 (F := F)) (k0_pay16 P0 (k0_pay2 P1 P2) (k0_pay3 (F := F)) (k0_pay12 P0 (k0_pay2 P1 P2) (k0_pay3 (F := F)) (k0_pay8 P0 (k0_pay2 P1 P2) (k0_pay3 (F := F)) (k0_pay4 P1 P2 P0) (k0_pay5 P0) (k0_pay6 P1 P2) (k0_pay7 (F := F))) (k0_pay9 P0) (k0_pay10 (k0_pay2 P1 P2) (k0_pay3 (F := F))) (k0_pay11 (F := F))) (k0_pay13 P0) (k0_pay14 (k0_pay2 P1 P2) (k0_pay3 (F := F))) (k0_pay15 (F := F))) (k0_pay17 P0) (k0_pay18 (k0_pay2 P1 P2) (k0_pay3 (F := F))) (k0_pay19 (F := F))) (k0_pay21 P0) (k0_pay22 (k0_pay2 P1 P2) (k0_pay3 (F := F))) (k0_pay23 (F := F))) (k0_pay25 P0) (k0_pay26 (k0_pay2 P1 P2) (k0_pay3 (F := F))) (k0_pay27 (F := F))) (k0_pay29 P0) (k0_pay30 (k0_pay2 P1 P2) (k0_pay3 (F := F))) (k0_pay31 (F := F))) (k0_pay33 P0) (k0_pay34 (k0_pay2 P1 P2) (k0_pay3 (F := F))) (k0_pay35 (F := F))) (k0_pay37 P0) (k0_pay38 (k0_pay2 P1 P2) (k0_pay3 (F := F))) (k0_pay39 (F := F))) (k0_pay41 P0) (k0_pay42 (k0_pay2 P1 P2) (k0_pay3 (F := F))) (k0_pay43 (F := F))) (k0_pay45 P0) (k0_pay46 (k0_pay2 P1 P2) (k0_pay3 (F := F))) (k0_pay47 (F := F))) (k0_pay49 P0) (k0_pay50 (k0_pay2 P1 P2) (k0_pay3 (F := F))) (k0_pay51 (F := F))) (k0_pay53 P0) (k0_pay54 (k0_pay2 P1 P2) (k0_pay3 (F := F))) (k0_pay55 (F := F))
      = vfold (colAt P0 P1 P2) 51 := rfl

/-! ## Reading the whole-block terms at a block index -/

/-- A column of a block spread over its row, read at `y`, is the column's entry in row `y 0`. -/
theorem col_apply {n : ℕ} (X : (⟨2, ![4096, n]⟩ : Shape).Idx → F .f32) (k : ℕ)
    (hs : (⟨2, ![4096, n]⟩ : Shape).Slices ![0, k] S4096x1) (y : S4096x51.Idx) (z : (⟨2, ![4096, n]⟩ : Shape).Idx)
    (h0 : (z 0).val = (y 0).val) (h1 : (z 1).val = k) :
    broadcastTo S4096x51 (extractStridedSlice S4096x1 ![0, k] X hs) broadcasts_S4096x1_S4096x51 y = X z := by
  refine (broadcastTo_apply _ broadcasts_S4096x1_S4096x51 y
    (fun a => match a with | ⟨0, _⟩ => ⟨(y 0).val, (y 0).isLt⟩ | ⟨1, _⟩ => ⟨0, Nat.zero_lt_one⟩) ?_).trans
    (extractStridedSlice_apply _ X hs _ z ?_)
  · intro a
    match a with
    | ⟨0, _⟩ => show (y 0).val = if (4096 : ℕ) = 1 then 0 else (y 0).val; rw [if_neg (by decide)]
    | ⟨1, _⟩ => show 0 = if (1 : ℕ) = 1 then 0 else _; rw [if_pos rfl]
  · intro a
    match a with
    | ⟨0, _⟩ => show (z 0).val = 0 + (y 0).val; omega
    | ⟨1, _⟩ => show (z 1).val = k + 0; omega

/-- A row spread over the rows, read at `y`, is the row's entry `y 1`. -/
theorem lane_apply (I : FVec F S1x51 .f32) (y : S4096x51.Idx) :
    broadcastTo S4096x51 I broadcasts_S1x51_S4096x51 y = I (laneAt y) := by
  refine broadcastTo_apply _ broadcasts_S1x51_S4096x51 y (laneAt y) ?_
  intro a
  match a with
  | ⟨0, _⟩ => show 0 = if (1 : ℕ) = 1 then 0 else _; rw [if_pos rfl]
  | ⟨1, _⟩ => show (y 1).val = if (51 : ℕ) = 1 then 0 else (y 1).val; rw [if_neg (by decide)]

/-- The supports recast as a row, read at `(0, j)`, are support `j`. -/
theorem support_apply (P2 : Vec F S51 .f32) (z : S4096x51.Idx) :
    shapeCast S1x51 P2 shapeCasts_S51_S1x51 (laneAt z) = P2 (atomOf z) := by
  refine (shapeCast_addUnit_apply (n := 1) ![51] P2 shapeCasts_S51_S1x51 (laneAt z)).trans (congrArg P2 (funext fun a => ?_))
  match a with
  | ⟨0, _⟩ => rfl

/-- The bin position of cell `z`: from the row's reward and mask and the atom's support. -/
theorem bin_at (P1 : Vec F S4096x2 .f32) (P2 : Vec F S51 .f32) (z : S4096x51.Idx) :
    k0_pay2 P1 P2 z = binOps (P1 (rowAt z 0)) (P1 (rowAt z 1)) (P2 (atomOf z)) := by
  unfold k0_pay2 binOps
  show FloatOps.divf (FloatOps.subf (FloatOps.minimumf (Scalar.ofBits .f32 0x41200000#32) (FloatOps.maximumf (Scalar.ofBits .f32 0xC1200000#32)
      (FloatOps.addf (broadcastTo S4096x51 (extractStridedSlice S4096x1 ![0, 0] (shapeCast S4096x2 P1 shapeCasts_S4096x2_S4096x2) slices_S4096x2_o0_0_S4096x1) broadcasts_S4096x1_S4096x51 z)
        (FloatOps.mulf (broadcastTo S4096x51 (mulf (broadcast S1x51 (Scalar.ofBits .f32 0x3F7D70A4#32)) (shapeCast S1x51 P2 shapeCasts_S51_S1x51)) broadcasts_S1x51_S4096x51 z)
          (broadcastTo S4096x51 (extractStridedSlice S4096x1 ![0, 1] (shapeCast S4096x2 P1 shapeCasts_S4096x2_S4096x2) slices_S4096x2_o0_1_S4096x1) broadcasts_S4096x1_S4096x51 z)))))
      (Scalar.ofBits .f32 0xC1200000#32)) (Scalar.ofBits .f32 0x3ECCCCCD#32) = _
  rw [shapeCast_self, col_apply (n := 2) P1 0 slices_S4096x2_o0_0_S4096x1 z (rowAt z 0) rfl rfl,
    col_apply (n := 2) P1 1 slices_S4096x2_o0_1_S4096x1 z (rowAt z 1) rfl rfl, lane_apply]
  show FloatOps.divf (FloatOps.subf (FloatOps.minimumf _ (FloatOps.maximumf _ (FloatOps.addf _ (FloatOps.mulf (FloatOps.mulf (Scalar.ofBits .f32 0x3F7D70A4#32) (shapeCast S1x51 P2 shapeCasts_S51_S1x51 (laneAt z))) _)))) _) _ = _
  rw [support_apply]

/-- Atom `k`'s whole-block term read at `y` is the atom's contribution there. -/
theorem colAt_apply (P0 : Vec F S4096x51 .f32) (P1 : Vec F S4096x2 .f32) (P2 : Vec F S51 .f32) (y : S4096x51.Idx) (k : ℕ)
    (hk : k < 51) : colAt P0 P1 P2 k y = term P0 P1 P2 y k := by
  have hm : k % 51 = k := Nat.mod_eq_of_lt hk
  unfold colAt
  rw [dif_pos hk]
  unfold colVec
  show FloatOps.mulf (broadcastTo S4096x51 (extractStridedSlice S4096x1 ![0, k] P0 (slicesCol k hk)) broadcasts_S4096x1_S4096x51 y)
      (FloatOps.maximumf (Scalar.ofBits .f32 0x00000000#32) (FloatOps.subf (Scalar.ofBits .f32 0x3F800000#32)
        (FloatOps.absf (FloatOps.subf (broadcastTo S4096x51 (extractStridedSlice S4096x1 ![0, k] (k0_pay2 P1 P2) (slicesCol k hk)) broadcasts_S4096x1_S4096x51 y)
          (broadcastTo S4096x51 (k0_pay3 (F := F)) broadcasts_S1x51_S4096x51 y))))) = _
  rw [col_apply (n := 51) P0 k (slicesCol k hk) y (cellAt y k) rfl hm,
    col_apply (n := 51) (k0_pay2 P1 P2) k (slicesCol k hk) y (cellAt y k) rfl hm, lane_apply, bin_at]
  rfl

/-- A running sum of whole-block terms, read at `y`, is the running sum of the terms read at `y`. -/
theorem vfold_apply (f : ℕ → FVec F S4096x51 .f32) (n : ℕ) (y : S4096x51.Idx) :
    vfold f n y = foldUpTo (fun k => f k y) n := by
  induction n with
  | zero => rfl
  | succ n ih =>
    show FloatOps.addf (vfold f n y) (f n y) = FloatOps.addf (foldUpTo (fun k => f k y) n) (f n y)
    rw [ih]

/-- The stored block at `y` is the left fold of the 51 atoms' contributions. -/
theorem block_eq (P0 : Vec F S4096x51 .f32) (P1 : Vec F S4096x2 .f32) (P2 : Vec F S51 .f32) (y : S4096x51.Idx) :
    (k0_pay1 P0 (k0_pay2 P1 P2) (k0_pay3 (F := F)) (k0_pay52 P0 (k0_pay2 P1 P2) (k0_pay3 (F := F)) (k0_pay48 P0 (k0_pay2 P1 P2) (k0_pay3 (F := F)) (k0_pay44 P0 (k0_pay2 P1 P2) (k0_pay3 (F := F)) (k0_pay40 P0 (k0_pay2 P1 P2) (k0_pay3 (F := F)) (k0_pay36 P0 (k0_pay2 P1 P2) (k0_pay3 (F := F)) (k0_pay32 P0 (k0_pay2 P1 P2) (k0_pay3 (F := F)) (k0_pay28 P0 (k0_pay2 P1 P2) (k0_pay3 (F := F)) (k0_pay24 P0 (k0_pay2 P1 P2) (k0_pay3 (F := F)) (k0_pay20 P0 (k0_pay2 P1 P2) (k0_pay3 (F := F)) (k0_pay16 P0 (k0_pay2 P1 P2) (k0_pay3 (F := F)) (k0_pay12 P0 (k0_pay2 P1 P2) (k0_pay3 (F := F)) (k0_pay8 P0 (k0_pay2 P1 P2) (k0_pay3 (F := F)) (k0_pay4 P1 P2 P0) (k0_pay5 P0) (k0_pay6 P1 P2) (k0_pay7 (F := F))) (k0_pay9 P0) (k0_pay10 (k0_pay2 P1 P2) (k0_pay3 (F := F))) (k0_pay11 (F := F))) (k0_pay13 P0) (k0_pay14 (k0_pay2 P1 P2) (k0_pay3 (F := F))) (k0_pay15 (F := F))) (k0_pay17 P0) (k0_pay18 (k0_pay2 P1 P2) (k0_pay3 (F := F))) (k0_pay19 (F := F))) (k0_pay21 P0) (k0_pay22 (k0_pay2 P1 P2) (k0_pay3 (F := F))) (k0_pay23 (F := F))) (k0_pay25 P0) (k0_pay26 (k0_pay2 P1 P2) (k0_pay3 (F := F))) (k0_pay27 (F := F))) (k0_pay29 P0) (k0_pay30 (k0_pay2 P1 P2) (k0_pay3 (F := F))) (k0_pay31 (F := F))) (k0_pay33 P0) (k0_pay34 (k0_pay2 P1 P2) (k0_pay3 (F := F))) (k0_pay35 (F := F))) (k0_pay37 P0) (k0_pay38 (k0_pay2 P1 P2) (k0_pay3 (F := F))) (k0_pay39 (F := F))) (k0_pay41 P0) (k0_pay42 (k0_pay2 P1 P2) (k0_pay3 (F := F))) (k0_pay43 (F := F))) (k0_pay45 P0) (k0_pay46 (k0_pay2 P1 P2) (k0_pay3 (F := F))) (k0_pay47 (F := F))) (k0_pay49 P0) (k0_pay50 (k0_pay2 P1 P2) (k0_pay3 (F := F))) (k0_pay51 (F := F))) (k0_pay53 P0) (k0_pay54 (k0_pay2 P1 P2) (k0_pay3 (F := F))) (k0_pay55 (F := F))) y
      = foldUpTo (term P0 P1 P2 y) 51 := by
  rw [payload_eq_vfold, vfold_apply]
  exact foldUpTo_congr _ _ 51 (fun k hk => colAt_apply P0 P1 P2 y k hk)

end Cert.KernelIdeal.HatValue

end
-- ==== Proof.Consts.lean ====
/-
  The float constants the two programs spell, as the extended reals their bit patterns denote when a float is read
  exactly: `0`, `1`, `10`, `-10`, the binary value nearest `2/5` (the bin width, a little above `2/5`) and the binary value
  nearest `99/100` (the discount). Both programs use the same patterns, so only the first four values and the sign and
  size of the bin width matter.
-/
import Idealize.ShloMosaic.PureOps.Ideal

noncomputable section

namespace Cert.Consts

open Idealize.ShloMosaic

theorem ofBits_zero : Ideal.ofBits .f32 0x00000000#32 = 0 := by
  simp [Ideal.ofBits, Ideal.ieee]

theorem ofBits_one : Ideal.ofBits .f32 0x3F800000#32 = ((1 : ℝ) : EReal) := by
  simp [Ideal.ofBits, Ideal.ieee, -EReal.coe_mul]; norm_num

theorem ofBits_ten : Ideal.ofBits .f32 0x41200000#32 = ((10 : ℝ) : EReal) := by
  simp [Ideal.ofBits, Ideal.ieee, -EReal.coe_mul]; norm_num

theorem ofBits_neg_ten : Ideal.ofBits .f32 0xC1200000#32 = ((-10 : ℝ) : EReal) := by
  simp [Ideal.ofBits, Ideal.ieee, -EReal.coe_mul]; norm_num

/-- The bin width: the binary value nearest `2/5`. -/
theorem ofBits_width : Ideal.ofBits .f32 0x3ECCCCCD#32 = ((13421773 / 33554432 : ℝ) : EReal) := by
  simp [Ideal.ofBits, Ideal.ieee, -EReal.coe_mul]; norm_num

/-- The discount: the binary value nearest `99/100`. -/
theorem ofBits_discount : Ideal.ofBits .f32 0x3F7D70A4#32 = ((16609444 / 16777216 : ℝ) : EReal) := by
  simp [Ideal.ofBits, Ideal.ieee, -EReal.coe_mul]; norm_num

end Cert.Consts

end
-- ==== Proof.Spec.lean ====
/-
  The two quantities both programs compute per atom, as functions on the extended reals, and their values on reals.

  `binPos r mk s` is the bin position of an atom with support `s` in a row with reward `r` and mask `mk`: the target
  value `r + (discount · s) · mk` clamped to [-10, 10], shifted by 10 and divided by the bin width. `hatTerm p b bin` is
  the share `p · max 0 (1 - |b - bin|)` of the probability `p` that an atom at position `b` gives to the bin `bin`, the
  absolute value spelled `max x (-x)`. On real arguments both are reals: the bin position is the real `binPosR r mk s`,
  which lies in [0, 50] because the clamp keeps the shifted value in [0, 20] and the bin width is a little more than
  2/5; the hat term is the real hat function.
-/
import proofs.«121574_j38955353375480_2_alg».proof.Proof.Consts
import Idealize.ShloMosaic.PureOps.Ideal

noncomputable section

namespace Cert.Spec

open Idealize.ShloMosaic

/-- The bin position of an atom. -/
def binPos (r mk s : EReal) : EReal :=
  Ideal.div (min (Ideal.ofBits .f32 0x41200000#32) (max (Ideal.ofBits .f32 0xC1200000#32)
    (r + Ideal.ofBits .f32 0x3F7D70A4#32 * s * mk)) - Ideal.ofBits .f32 0xC1200000#32) (Ideal.ofBits .f32 0x3ECCCCCD#32)

/-- The share of `p` that position `b` gives to bin `bin`. -/
def hatTerm (p b bin : EReal) : EReal :=
  p * max (Ideal.ofBits .f32 0x00000000#32) (Ideal.ofBits .f32 0x3F800000#32 - max (b - bin) (-(b - bin)))

/-- The bin position on reals. -/
def binPosR (r mk s : ℝ) : ℝ :=
  (min 10 (max (-10) (r + 16609444 / 16777216 * s * mk)) - (-10)) * (1 / (13421773 / 33554432))

theorem coe_max' (x y : ℝ) : max (x : EReal) (y : EReal) = ((max x y : ℝ) : EReal) :=
  (EReal.coe_strictMono.monotone.map_max).symm

theorem coe_min' (x y : ℝ) : min (x : EReal) (y : EReal) = ((min x y : ℝ) : EReal) :=
  (EReal.coe_strictMono.monotone.map_min).symm

theorem binPos_coe (r mk s : ℝ) : binPos (r : EReal) (mk : EReal) (s : EReal) = ((binPosR r mk s : ℝ) : EReal) := by
  unfold binPos binPosR
  rw [Consts.ofBits_ten, Consts.ofBits_neg_ten, Consts.ofBits_discount, Consts.ofBits_width,
    Ideal.div_coe (by norm_num : (13421773 / 33554432 : ℝ) ≠ 0)]
  simp only [← EReal.coe_mul, ← EReal.coe_add, ← EReal.coe_sub, coe_max', coe_min']

theorem binPosR_range (r mk s : ℝ) : 0 ≤ binPosR r mk s ∧ binPosR r mk s ≤ 50 := by
  have h1 : (-10 : ℝ) ≤ min 10 (max (-10) (r + 16609444 / 16777216 * s * mk)) :=
    le_min (by norm_num) (le_max_left _ _)
  have h2 : min 10 (max (-10) (r + 16609444 / 16777216 * s * mk)) ≤ (10 : ℝ) := min_le_left _ _
  have hw : (1 / (13421773 / 33554432) : ℝ) = 33554432 / 13421773 := by norm_num
  unfold binPosR
  rw [hw]
  constructor
  · exact mul_nonneg (by linarith) (by norm_num)
  · have h3 := mul_le_mul_of_nonneg_right
      (show min 10 (max (-10) (r + 16609444 / 16777216 * s * mk)) - (-10) ≤ (20 : ℝ) by linarith)
      (show (0 : ℝ) ≤ 33554432 / 13421773 by norm_num)
    have h4 : (20 : ℝ) * (33554432 / 13421773) ≤ 50 := by norm_num
    linarith

theorem hatTerm_coe (p b bin : ℝ) :
    hatTerm (p : EReal) (b : EReal) (bin : EReal) = ((p * max 0 (1 - |b - bin|) : ℝ) : EReal) := by
  unfold hatTerm
  rw [Consts.ofBits_zero, Consts.ofBits_one, ← EReal.coe_zero, ← EReal.coe_sub, ← EReal.coe_neg, coe_max',
    ← EReal.coe_sub, coe_max', ← EReal.coe_mul, ← abs_eq_max_neg]

end Cert.Spec

end
-- ==== Proof.Target.lean ====
/-
  The function both programs compute.

  Entry `(row, bin)` of the result is the sum over the 51 atoms `k` of the share that atom `k` of the row gives to the
  bin: `hatTerm p b bin` with `p` the row's probability of atom `k` (input 1), `b` the atom's bin position computed from the
  row's reward (input 0), the row's mask read as a signed integer (input 3) and the atom's support (input 2).
-/
import proofs.«121574_j38955353375480_2_alg».proof.Proof.Spec

noncomputable section

open scoped BigOperators

namespace Cert.Target

open Idealize.ShloMosaic

abbrev SRows : Shape := ⟨1, ![1048576]⟩
abbrev SCells : Shape := ⟨2, ![1048576, 51]⟩
abbrev SAtoms : Shape := ⟨1, ![51]⟩

/-- The row of a cell. -/
abbrev rowIdx (i : SCells.Idx) : SRows.Idx := fun a => match a with
  | ⟨0, _⟩ => ⟨(i 0).val, (i 0).isLt⟩

/-- The cell of atom `k` in the row of cell `i`. -/
abbrev cellIdx (i : SCells.Idx) (k : Fin 51) : SCells.Idx := fun a => match a with
  | ⟨0, _⟩ => ⟨(i 0).val, (i 0).isLt⟩
  | ⟨1, _⟩ => ⟨k.val, k.isLt⟩

/-- Atom `k` among the supports. -/
abbrev atomIdx (k : Fin 51) : SAtoms.Idx := fun a => match a with
  | ⟨0, _⟩ => ⟨k.val, k.isLt⟩

/-- The projected distribution: every atom's share of every bin, summed over the atoms. -/
def G (a0 : SRows.Idx → EReal) (a1 : SCells.Idx → EReal) (a2 : SAtoms.Idx → EReal) (a3 : SRows.Idx → BitVec 32) :
    SCells.Idx → EReal :=
  fun i => ∑ k : Fin 51, Spec.hatTerm (a1 (cellIdx i k))
    (Spec.binPos (a0 (rowIdx i)) ((((a3 (rowIdx i)).toInt : ℝ)) : EReal) (a2 (atomIdx k))) ((((i 1).val : ℝ)) : EReal)

end Cert.Target

end
-- ==== Proof.KernelArray.lean ====
/-
  The kernel's result array, entry by entry.

  Grid point `t` works on rows `4096 t … 4096 t + 4095`: it loads those rows of the two-column array (reward, mask), of the
  probabilities and the whole vector of supports, and writes back the block whose entry `(y 0, y 1)` is the running sum
  over the 51 atoms of the atoms' hat terms (`block_eq`). A running sum from zero is the sum; the two-column array
  was written before the launch as the rewards next to the masks converted to floats; the row of bin numbers holds
  `0, 1, …, 50` as floats. So the block is the restriction of the projected distribution `Target.G` of the four
  argument arrays to the point's rows, the 256 points' blocks tile the array, and the array ends holding `G`.
-/
import proofs.«121574_j38955353375480_2_alg».proof.Proof.PatchedKernelIdealFrame
import proofs.«121574_j38955353375480_2_alg».proof.Proof.KernelBlock
import proofs.«121574_j38955353375480_2_alg».proof.Proof.Spec
import proofs.«121574_j38955353375480_2_alg».proof.Proof.Target
import Idealize.ShloMosaic.PureOps.Ideal
import Idealize.ShloMosaic.Lib.Pipeline.Value
import Idealize.ShloMosaic.Lib.StableHlo.Run
import Idealize.ShloMosaic.Lib.DynamicIndex
import Idealize.ShloMosaic.Lib.ValueIdx

noncomputable section

open scoped BigOperators

namespace Cert.KernelIdeal.HatValue

open Cert.KernelIdeal Cert.KernelIdeal.Gen Cert.KernelIdeal.GenP Idealize.ShloMosaic Idealize.ShloMosaic.TcCoe Idealize.SL.Sem
open Idealize.ShloMosaic.Pipeline (Dat)

/-! ## The block as a sum -/

/-- A running sum from zero is the sum. -/
theorem fold_eq_sum (f : ℕ → EReal) (n : ℕ) : foldUpTo (F := Ideal) f n = ∑ k ∈ Finset.range n, f k := by
  induction n with
  | zero => rw [Finset.sum_range_zero]; exact Consts.ofBits_zero
  | succ n ih => rw [Finset.sum_range_succ, ← ih]; rfl

/-- One atom's contribution is its hat term at its bin position. -/
theorem term_eq (P0 : Vec Ideal S4096x51 .f32) (P1 : Vec Ideal S4096x2 .f32) (P2 : Vec Ideal S51 .f32) (y : S4096x51.Idx) (k : ℕ) :
    term P0 P1 P2 y k = Spec.hatTerm (P0 (cellAt y k)) (Spec.binPos (P1 (rowAt y 0)) (P1 (rowAt y 1)) (P2 (atomAt k)))
      ((k0_pay3 (F := Ideal)) (laneAt y)) := rfl

/-- The row of bin numbers holds the bin's number. -/
theorem lane_eq (y : S4096x51.Idx) : (k0_pay3 (F := Ideal)) (laneAt y) = ((((y 1).val : ℝ)) : EReal) := by
  have h51 : (y 1).val < 51 := (y 1).isLt
  show ((((BitVec.ofNat 32 (0 * 51 + (y 1).val)).toInt : ℤ) : ℝ) : EReal) = _
  rw [Nat.zero_mul, Nat.zero_add, toInt_ofNat_of_lt (by omega)]
  norm_num

/-! ## The arrays the region finds -/

variable (m : (ℓ : Loc nD τ sig) → Buf (Elt Ideal) ℓ) (ρ : Dev nD → PrngReg)

/-- The two-column array as launched: the rewards next to the masks converted to floats. -/
theorem V_main_v3 (c : Dev nD) :
    (V m c main_v3 : S1048576x2.Idx → EReal)
      = concatenate S1048576x2 1
          [⟨S1048576x1, broadcastInDim S1048576x1 ![0] bcast_S1048576_S1048576x1_0 (m ((c : Thread nD τ).loc main_arg0))⟩,
           ⟨S1048576x1, broadcastInDim S1048576x1 ![0] bcast_S1048576_S1048576x1_0
              (sitofp (F := Ideal) .f32 (m ((c : Thread nD τ).loc main_arg3)))⟩]
          concatenates_S1048576x1_S1048576x1_S1048576x2_d1 := by
  dsimp only [GenP.V, Gen.hostOps0]
  after_results

/-- A broadcast of a column vector to one column, read at a row. -/
theorem column_apply (x : S1048576.Idx → EReal) (i : S1048576x1.Idx) (k : S1048576.Idx) (hk : (k 0).val = (i 0).val) :
    broadcastInDim S1048576x1 ![0] bcast_S1048576_S1048576x1_0 x i = x k :=
  broadcastInDim_apply _ bcast_S1048576_S1048576x1_0 x i k (fun a => match a with
    | ⟨0, _⟩ => by show (k 0).val = if (1048576 : Nat) = 1 then 0 else (i 0).val; rw [if_neg (by decide)]; exact hk)

/-- Row `q 0`, as an index of the one-column arrays and of the vectors. -/
abbrev pairRow (q : S1048576x2.Idx) : S1048576x1.Idx := fun a => match a with
  | ⟨0, _⟩ => ⟨(q 0).val, (q 0).isLt⟩
  | ⟨1, _⟩ => ⟨0, Nat.zero_lt_one⟩
abbrev rowOf (q : S1048576x2.Idx) : S1048576.Idx := fun a => match a with
  | ⟨0, _⟩ => ⟨(q 0).val, (q 0).isLt⟩

/-- Column 0 of the two-column array is the reward. -/
theorem rm_reward (c : Dev nD) (q : S1048576x2.Idx) (hq : (q 1).val = 0) :
    V m c main_v3 q = m ((c : Thread nD τ).loc main_arg0) (rowOf q) := by
  have e := congrFun (V_main_v3 m c) q
  refine e.trans ?_
  refine (concatenate_pair_apply_left (t := S1048576x2) (s₁ := S1048576x1) (s₂ := S1048576x1) 1 _ _
    concatenates_S1048576x1_S1048576x1_S1048576x2_d1 q rfl
    (pairRow q)
    (fun b => match b with | ⟨0, _⟩ => rfl | ⟨1, _⟩ => hq.symm)).trans ?_
  exact column_apply _ (pairRow q) (rowOf q) rfl

/-- Column 1 of the two-column array is the mask, read signed, as a float. -/
theorem rm_mask (c : Dev nD) (q : S1048576x2.Idx) (hq : (q 1).val = 1) :
    V m c main_v3 q = ((((m ((c : Thread nD τ).loc main_arg3) (rowOf q)).toInt : ℤ) : ℝ) : EReal) := by
  have e := congrFun (V_main_v3 m c) q
  refine e.trans ?_
  refine (concatenate_pair_apply_right (t := S1048576x2) (s₁ := S1048576x1) (s₂ := S1048576x1) 1 _ _
    concatenates_S1048576x1_S1048576x1_S1048576x2_d1 q rfl rfl
    (pairRow q)
    (fun b => match b with | ⟨0, _⟩ => fun _ => rfl | ⟨1, _⟩ => fun h => absurd rfl h)
    (by show 0 + 1 = (q 1).val; omega)).trans ?_
  exact column_apply (sitofp (F := Ideal) .f32 (m ((c : Thread nD τ).loc main_arg3))) (pairRow q) (rowOf q) rfl

/-! ## What a grid point writes back -/

theorem hz2 : (![0, 0] : Fin 2 → Nat) = fun _ => 0 := funext fun a => by fin_cases a <;> rfl
theorem hz1 : (![0] : Fin 1 → Nat) = fun _ => 0 := funext fun a => by fin_cases a <;> rfl

/-- The printed index maps over the 256 grid points: the row windows move with the point, the supports do not. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Equal arguments give equal hat terms. -/
theorem hat_congr {p p' r r' mk mk' s s' j j' : EReal} (hp : p = p') (hr : r = r') (hm : mk = mk') (hs : s = s')
    (hj : j = j') : Spec.hatTerm p (Spec.binPos r mk s) j = Spec.hatTerm p' (Spec.binPos r' mk' s') j' := by
  subst hp hr hm hs hj; rfl

/-- What point `t` writes back is block `t` of the projected distribution of the argument arrays. -/
theorem flushed3_eq (c : Dev nD) (t : Fin cfg0.N) :
    (dats m 0 c).flushed 3 t = ((cfg0.win 3).blk t).view.read (Elt Ideal) (Cert.Target.G (m ((c : Thread nD τ).loc main_arg0)) (m ((c : Thread nD τ).loc main_arg1)) (m ((c : Thread nD τ).loc main_arg2)) (m ((c : Thread nD τ).loc main_arg3))) := by
  show (cfg0.win 3).cut (grid0.coords t) ((dats m 0 c).after 3 t) = _
  rw [after0_3]
  obtain ⟨e00, e01, e10, e11, e20, e30, e31⟩ := idx_facts t
  funext y
  show out0_3 (iblk m c 0 t) (iblk m c 1 t) (iblk m c 2 t) y = (Cert.Target.G (m ((c : Thread nD τ).loc main_arg0)) (m ((c : Thread nD τ).loc main_arg1)) (m ((c : Thread nD τ).loc main_arg2)) (m ((c : Thread nD τ).loc main_arg3))) (((cfg0.win 3).blk t).view.emb y)
  unfold out0_3
  rw [View.canon_unit_zero hz2]
  refine (block_eq (View.ld (iblk m c 1 t) r0_2) (View.ld (iblk m c 0 t) r0_0) (View.ld (iblk m c 2 t) r0_1) y).trans ?_
  rw [fold_eq_sum, Finset.sum_range]
  unfold Cert.Target.G
  refine Finset.sum_congr rfl fun k _ => ?_
  rw [term_eq, lane_eq]
  have l1 : View.ld (iblk m c 1 t) r0_2 = iblk m c 1 t := View.ld_unit_zero (S := S4096x51) hz2 _ _
  have l0 : View.ld (iblk m c 0 t) r0_0 = iblk m c 0 t := View.ld_unit_zero (S := S4096x2) hz2 _ _
  have l2 : View.ld (iblk m c 2 t) r0_1 = iblk m c 2 t := View.ld_unit_zero (S := S51) hz1 _ _
  have hy0 : (y 0).val < 4096 := (y 0).isLt
  have hy1 : (y 1).val < 51 := (y 1).isLt
  have hk : k.val < 51 := k.isLt
  have hp : iblk m c 1 t (cellAt y k.val) = m ((c : Thread nD τ).loc main_arg1) (Cert.Target.cellIdx (((cfg0.win 3).blk t).view.emb y) k) := by
    show V m c main_arg1 (((cfg0.win 1).blk t).view.emb (cellAt y k.val)) = _
    rw [V_main_arg1]
    refine congrArg _ (funext fun a => Fin.ext ?_)
    match a with
    | ⟨0, _⟩ => show win0_1.index t (0 : Fin 2) * 4096 + 1 * (y 0).val = win0_3.index t (0 : Fin 2) * 4096 + 1 * (y 0).val; omega
    | ⟨1, _⟩ => show win0_1.index t (1 : Fin 2) * 51 + 1 * (k.val % 51) = k.val; omega
  have hr : iblk m c 0 t (rowAt y 0) = m ((c : Thread nD τ).loc main_arg0) (Cert.Target.rowIdx (((cfg0.win 3).blk t).view.emb y)) := by
    show V m c main_v3 (((cfg0.win 0).blk t).view.emb (rowAt y 0)) = _
    rw [rm_reward m c _ (by show win0_0.index t (1 : Fin 2) * 2 + 1 * (0 % 2) = 0; omega)]
    refine congrArg _ (funext fun a => Fin.ext ?_)
    match a with
    | ⟨0, _⟩ => show win0_0.index t (0 : Fin 2) * 4096 + 1 * (y 0).val = win0_3.index t (0 : Fin 2) * 4096 + 1 * (y 0).val; omega
  have hm : iblk m c 0 t (rowAt y 1) = ((((m ((c : Thread nD τ).loc main_arg3) (Cert.Target.rowIdx (((cfg0.win 3).blk t).view.emb y))).toInt : ℤ) : ℝ) : EReal) := by
    show V m c main_v3 (((cfg0.win 0).blk t).view.emb (rowAt y 1)) = _
    rw [rm_mask m c _ (by show win0_0.index t (1 : Fin 2) * 2 + 1 * (1 % 2) = 1; omega)]
    refine congrArg (fun z => ((((m ((c : Thread nD τ).loc main_arg3) z).toInt : ℤ) : ℝ) : EReal)) (funext fun a => Fin.ext ?_)
    match a with
    | ⟨0, _⟩ => show win0_0.index t (0 : Fin 2) * 4096 + 1 * (y 0).val = win0_3.index t (0 : Fin 2) * 4096 + 1 * (y 0).val; omega
  have hs : iblk m c 2 t (atomAt k.val) = m ((c : Thread nD τ).loc main_arg2) (Cert.Target.atomIdx k) := by
    show V m c main_arg2 (((cfg0.win 2).blk t).view.emb (atomAt k.val)) = _
    rw [V_main_arg2]
    refine congrArg _ (funext fun a => Fin.ext ?_)
    match a with
    | ⟨0, _⟩ => show win0_2.index t (0 : Fin 1) * 51 + 1 * (k.val % 51) = k.val; omega
  have hj : ((((y 1).val : ℝ)) : EReal) = (((((((cfg0.win 3).blk t).view.emb y) 1).val : ℝ)) : EReal) := by
    have e : ((((cfg0.win 3).blk t).view.emb y) 1).val = (y 1).val := by
      show win0_3.index t (1 : Fin 2) * 51 + 1 * (y 1).val = (y 1).val; omega
    rw [e]
  exact hat_congr ((congrFun l1 _).trans hp) ((congrFun l0 _).trans hr) ((congrFun l0 _).trans hm) ((congrFun l2 _).trans hs) hj

/-- An index of the array is in point `t`'s block iff each coordinate is in the block's range on its axis. -/
theorem mem_blk3 (t : Fin cfg0.N) (i : S1048576x51.Idx) :
    i ∈ ((cfg0.win 3).blk t).view.set ↔ ∀ a : Fin 2, win0_3.index t a * S4096x51.size a ≤ (i a).val
      ∧ (i a).val < win0_3.index t a * S4096x51.size a + S4096x51.size a := by
  show i ∈ ((View.whole main_v4).slice (win0_3.rect t)).set ↔ _
  rw [View.set_slice_whole, Rect.mem_set_unit]
  exact Iff.rfl

/-- Every cell lies in the block of the point that holds its row. -/
theorem cover3 (i : S1048576x51.Idx) :
    ∃ t : Fin cfg0.N, (cfg0.win 3).flush t = true ∧ i ∈ ((cfg0.win 3).blk t).view.set := by
  have hi0 : (i 0).val < 1048576 := (i 0).isLt
  have hi1 : (i 1).val < 51 := (i 1).isLt
  have ht : (i 0).val / 4096 < 256 := by omega
  obtain ⟨-, -, -, -, -, e30, e31⟩ := idx_facts ⟨(i 0).val / 4096, ht⟩
  have e30' : win0_3.index ⟨(i 0).val / 4096, ht⟩ (0 : Fin 2) = (i 0).val / 4096 := e30
  refine ⟨⟨(i 0).val / 4096, ht⟩, flush0_3 _, ?_⟩
  rw [mem_blk3]
  intro a
  match a with
  | ⟨0, _⟩ =>
    show win0_3.index ⟨(i 0).val / 4096, ht⟩ (0 : Fin 2) * 4096 ≤ (i 0).val
      ∧ (i 0).val < win0_3.index ⟨(i 0).val / 4096, ht⟩ (0 : Fin 2) * 4096 + 4096
    omega
  | ⟨1, _⟩ =>
    show win0_3.index ⟨(i 0).val / 4096, ht⟩ (1 : Fin 2) * 51 ≤ (i 1).val
      ∧ (i 1).val < win0_3.index ⟨(i 0).val / 4096, ht⟩ (1 : Fin 2) * 51 + 51
    omega

/-- The result array after the run is the projected distribution of the argument arrays. -/
theorem final3 (c : Dev nD) : (dats m 0 c).arrAt 3 cfg0.N = (Cert.Target.G (m ((c : Thread nD τ).loc main_arg0)) (m ((c : Thread nD τ).loc main_arg1)) (m ((c : Thread nD τ).loc main_arg2)) (m ((c : Thread nD τ).loc main_arg3))) :=
  (dats m 0 c).arrAt_eq_of_cover 3 _ (fun t _ => flushed3_eq m c t) cover3

/-- The kernel's run: the result array ends at the projected distribution, the arguments unchanged. -/
theorem run : θ_run defs (onTc (τ := τ) (main (F := Ideal))) ⟨m, fun _ => 0, ρ⟩ fun r => ∀ c : Dev nD,
      r.2.mem ((c : Thread nD τ).loc main_v4) = (Cert.Target.G (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 3).trans (final3 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c)⟩)
    (run_main m ρ)

end Cert.KernelIdeal.HatValue

end
-- ==== Proof.LibHatBins.lean ====
/-
  The two neighbouring bins of a position on an integer grid, and the hat function.

  A position `b` on the real line is shared between two neighbouring integer bins: the lower bin `l` and the upper bin
  `u = l + 1` with `l ≤ b ≤ l + 1`, bin `l` receiving the weight `u - b` and bin `u` the weight `b - l`. When `b` is not an
  integer the bins are `⌊b⌋` and `⌈b⌉`. When `b` is an integer the floor and the ceiling coincide and a tie-break separates
  them: a positive integer keeps itself as the upper bin (the lower bin moves down by one), any other integer keeps
  itself as the lower bin (the upper bin moves up by one). Either way the two weights are the values at `l` and at `u` of
  the hat function `j ↦ max 0 (1 - |b - j|)`, which vanishes at every other integer: summing the two weighted bins over
  the integers is the same as weighting every integer `j` by the hat function at `b - j`.
-/
import Mathlib

namespace Cert.HatBins

/-- The lower bin of `b`: its floor, moved down by one when `b` is a positive integer. -/
noncomputable def lowerBin (b : ℝ) : ℤ := if 0 < ⌈b⌉ ∧ ⌊b⌋ = ⌈b⌉ then ⌊b⌋ - 1 else ⌊b⌋

/-- The upper bin of `b`: its ceiling, moved up by one when the lower bin already sits there (below a cap that is
    never reached in that case). -/
noncomputable def upperBin (cap : ℤ) (b : ℝ) : ℤ :=
  if lowerBin b < cap ∧ lowerBin b = ⌈b⌉ then ⌈b⌉ + 1 else ⌈b⌉

/-- The bins are neighbours and `b` lies between them. The cap plays no part as long as it is positive. -/
theorem bins_spec (cap : ℤ) (hcap : 0 < cap) (b : ℝ) :
    upperBin cap b = lowerBin b + 1 ∧ ((lowerBin b : ℤ) : ℝ) ≤ b ∧ b ≤ ((lowerBin b : ℤ) : ℝ) + 1 := by
  have h1 : ((⌊b⌋ : ℤ) : ℝ) ≤ b := Int.floor_le b
  have h2 : b < ((⌊b⌋ : ℤ) : ℝ) + 1 := Int.lt_floor_add_one b
  have h3 : b ≤ ((⌈b⌉ : ℤ) : ℝ) := Int.le_ceil b
  have h4 : ((⌈b⌉ : ℤ) : ℝ) < b + 1 := Int.ceil_lt_add_one b
  have h5 : ⌊b⌋ ≤ ⌈b⌉ := by exact_mod_cast h1.trans h3
  have h6 : ⌈b⌉ ≤ ⌊b⌋ + 1 := by
    have h : ((⌈b⌉ : ℤ) : ℝ) < ((⌊b⌋ + 2 : ℤ) : ℝ) := by push_cast; linarith
    have h' : ⌈b⌉ < ⌊b⌋ + 2 := Int.cast_lt.mp h
    omega
  by_cases hI : ⌊b⌋ = ⌈b⌉
  · have hb : b = ((⌊b⌋ : ℤ) : ℝ) := le_antisymm (by rw [hI]; exact h3) h1
    by_cases hp : 0 < ⌈b⌉
    · have hl : lowerBin b = ⌊b⌋ - 1 := if_pos ⟨hp, hI⟩
      have hn : ¬ (lowerBin b < cap ∧ lowerBin b = ⌈b⌉) := by rw [hl]; omega
      have hu : upperBin cap b = ⌈b⌉ := if_neg hn
      rw [hu, hl]
      refine ⟨by omega, ?_, ?_⟩
      · push_cast; linarith
      · push_cast; linarith
    · have hl : lowerBin b = ⌊b⌋ := if_neg (fun h => hp h.1)
      have hy : lowerBin b < cap ∧ lowerBin b = ⌈b⌉ := by rw [hl]; exact ⟨by omega, hI⟩
      have hu : upperBin cap b = ⌈b⌉ + 1 := if_pos hy
      rw [hu, hl]
      exact ⟨by omega, h1, by linarith⟩
  · have hl : lowerBin b = ⌊b⌋ := if_neg (fun h => hI h.2)
    have hn : ¬ (lowerBin b < cap ∧ lowerBin b = ⌈b⌉) := by rw [hl]; exact fun h => hI h.2
    have hu : upperBin cap b = ⌈b⌉ := if_neg hn
    rw [hu, hl]
    exact ⟨by omega, h1, by linarith⟩

/-- A position between `0` and a positive `n` has its lower bin between `0` and `n - 1`. -/
theorem lowerBin_range (n : ℤ) (hn0 : 0 < n) (b : ℝ) (h0 : 0 ≤ b) (hn : b ≤ (n : ℝ)) : 0 ≤ lowerBin b ∧ lowerBin b ≤ n - 1 := by
  have h1 : ((⌊b⌋ : ℤ) : ℝ) ≤ b := Int.floor_le b
  have h3 : b ≤ ((⌈b⌉ : ℤ) : ℝ) := Int.le_ceil b
  have h5 : ⌊b⌋ ≤ ⌈b⌉ := by exact_mod_cast h1.trans h3
  have h7 : 0 ≤ ⌊b⌋ := Int.floor_nonneg.2 h0
  have h8 : ⌈b⌉ ≤ n := Int.ceil_le.2 hn
  unfold lowerBin
  split_ifs with h
  · omega
  · omega

/-- Between two neighbouring bins the two weights are the hat function, and every other integer gets nothing. -/
theorem hat_of_adjacent (l j : ℤ) (b p : ℝ) (h1 : (l : ℝ) ≤ b) (h2 : b ≤ (l : ℝ) + 1) :
    (if l = j then p * (((l + 1 : ℤ) : ℝ) - b) else 0) + (if l + 1 = j then p * (b - (l : ℝ)) else 0)
      = p * max 0 (1 - |b - (j : ℝ)|) := by
  by_cases hl : l = j
  · subst hl
    have hne : ¬ (l + 1 = l) := by omega
    rw [if_pos rfl, if_neg hne, add_zero, abs_of_nonneg (by linarith), max_eq_right (by linarith)]
    push_cast; ring
  · by_cases hu : l + 1 = j
    · subst hu
      rw [if_neg hl, if_pos rfl, zero_add]
      have hle : b - ((l + 1 : ℤ) : ℝ) ≤ 0 := by push_cast; linarith
      rw [abs_of_nonpos hle, max_eq_right (by push_cast; linarith)]
      push_cast; ring
    · rw [if_neg hl, if_neg hu, add_zero]
      have hz : 1 - |b - (j : ℝ)| ≤ 0 := by
        rcases lt_or_gt_of_ne hl with h | h
        · have hj : (l : ℝ) + 2 ≤ (j : ℝ) := by exact_mod_cast (by omega : l + 2 ≤ j)
          rw [abs_of_nonpos (by linarith)]; linarith
        · have hj : (j : ℝ) + 1 ≤ (l : ℝ) := by exact_mod_cast (by omega : j + 1 ≤ l)
          rw [abs_of_nonneg (by linarith)]; linarith
      rw [max_eq_left hz, mul_zero]

/-- The weight `u - b` on the lower bin and the weight `b - l` on the upper bin, read at an integer `j`, add up to
    the hat function at `b - j`. -/
theorem hat_split (cap : ℤ) (hcap : 0 < cap) (b p : ℝ) (j : ℤ) :
    (if lowerBin b = j then p * (((upperBin cap b : ℤ) : ℝ) - b) else 0)
        + (if upperBin cap b = j then p * (b - ((lowerBin b : ℤ) : ℝ)) else 0)
      = p * max 0 (1 - |b - (j : ℝ)|) := by
  obtain ⟨hu, h1, h2⟩ := bins_spec cap hcap b
  rw [hu]
  exact hat_of_adjacent _ j b p h1 h2

end Cert.HatBins
-- ==== Proof.LibRowSegment.lean ====
/-
  Sums over a flat array of rows, restricted to the entries that land on one cell.

  A flat array of `E = B * A` entries is `B` rows of `A` entries: entry `e` sits in row `e / A`. Suppose every entry carries
  an offset inside its own row, `0 ≤ off e < A`, and is sent to the flat position `off e + (e / A) * A`. Then the entries
  sent to the flat position `R * A + j` are exactly the entries of row `R` whose offset is `j` (division with remainder is
  unique), so a sum over those entries is a sum over the `A` entries of row `R`, keeping the ones whose offset is `j`.
-/
import Mathlib

open scoped BigOperators

namespace Cert.RowSegment

/-- Division with remainder is unique: two ways of writing one integer as a multiple of `A` plus a remainder in
    `[0, A)` agree in both parts. -/
theorem quot_rem_unique (A q R o j : ℤ) (ho : 0 ≤ o) (ho' : o < A) (hj : 0 ≤ j) (hj' : j < A)
    (h : o + q * A = R * A + j) : q = R ∧ o = j := by
  have key : (q - R) * A = j - o := by linear_combination h
  have hq : q = R := by
    rcases lt_trichotomy q R with hlt | heq | hgt
    · exfalso
      have h1 : (q - R) * A ≤ -A := by nlinarith
      linarith
    · exact heq
    · exfalso
      have h1 : A ≤ (q - R) * A := by nlinarith
      linarith
  subst hq
  refine ⟨rfl, ?_⟩
  have : (q - q) * A = 0 := by ring
  linarith

/-- Entry `k` of row `R` in the flat array of length `E = B * A`. -/
def cell {B A E : ℕ} (hE : E = B * A) (R : Fin B) (k : Fin A) : Fin E :=
  ⟨R.val * A + k.val, by
    rw [hE]
    have h1 : R.val + 1 ≤ B := R.isLt
    have h2 : (R.val + 1) * A ≤ B * A := Nat.mul_le_mul_right A h1
    have h3 := k.isLt
    calc R.val * A + k.val < R.val * A + A := by omega
      _ = (R.val + 1) * A := by ring
      _ ≤ B * A := h2⟩

theorem cell_val {B A E : ℕ} (hE : E = B * A) (R : Fin B) (k : Fin A) : (cell hE R k).val = R.val * A + k.val := rfl

theorem cell_div {B A E : ℕ} (hE : E = B * A) (R : Fin B) (k : Fin A) : (cell hE R k).val / A = R.val := by
  have hA : 0 < A := Fin.pos k
  rw [cell_val hE, Nat.add_comm, Nat.add_mul_div_right _ _ hA, Nat.div_eq_of_lt k.isLt, Nat.zero_add]

theorem cell_mod {B A E : ℕ} (hE : E = B * A) (R : Fin B) (k : Fin A) : (cell hE R k).val % A = k.val := by
  rw [cell_val hE, Nat.add_comm, Nat.add_mul_mod_self_right, Nat.mod_eq_of_lt k.isLt]

/-- An entry of row `R` is the cell of `R` at its position inside the row. -/
theorem cell_of_div {B A E : ℕ} (hE : E = B * A) (hA : 0 < A) (R : Fin B) (e : Fin E) (h : e.val / A = R.val) :
    cell hE R ⟨e.val % A, Nat.mod_lt _ hA⟩ = e := by
  apply Fin.ext
  rw [cell_val hE, ← h]
  exact Nat.div_add_mod' e.val A

/-- The sum of `upd` over the entries sent to flat position `R * A + j` is the sum over row `R` of the entries whose
    offset is `j`. -/
theorem sum_filter_rows {M : Type*} [AddCommMonoid M] {B A E : ℕ} (hE : E = B * A) (upd : Fin E → M) (tgt off : Fin E → ℤ)
    (htgt : ∀ e, tgt e = off e + ((e.val / A : ℕ) : ℤ) * (A : ℤ)) (hoff : ∀ e, 0 ≤ off e ∧ off e < (A : ℤ))
    (R : Fin B) (j : Fin A) (n : ℤ) (hn : n = (R.val : ℤ) * (A : ℤ) + (j.val : ℤ)) :
    ∑ e ∈ Finset.univ.filter (fun e : Fin E => tgt e = n), upd e
      = ∑ k : Fin A, if off (cell hE R k) = (j.val : ℤ) then upd (cell hE R k) else 0 := by
  have hA : 0 < A := Fin.pos j
  have hkey : ∀ e : Fin E, tgt e = n ↔ (e.val / A = R.val ∧ off e = (j.val : ℤ)) := by
    intro e
    constructor
    · intro h
      rw [htgt e, hn] at h
      have hj : ((j.val : ℕ) : ℤ) < (A : ℤ) := by exact_mod_cast j.isLt
      obtain ⟨h1, h2⟩ := quot_rem_unique (A : ℤ) ((e.val / A : ℕ) : ℤ) (R.val : ℤ) (off e) (j.val : ℤ)
        (hoff e).1 (hoff e).2 (by positivity) hj h
      exact ⟨by exact_mod_cast h1, h2⟩
    · rintro ⟨h1, h2⟩
      rw [htgt e, hn, h1, h2]
      ring
  rw [← Finset.sum_filter]
  refine Finset.sum_bij' (fun e _ => (⟨e.val % A, Nat.mod_lt _ hA⟩ : Fin A)) (fun k _ => cell hE R k) ?_ ?_ ?_ ?_ ?_
  · intro e he
    have h := (hkey e).1 (Finset.mem_filter.1 he).2
    refine Finset.mem_filter.2 ⟨Finset.mem_univ _, ?_⟩
    rw [cell_of_div hE hA R e h.1]
    exact h.2
  · intro k hk
    have h := (Finset.mem_filter.1 hk).2
    exact Finset.mem_filter.2 ⟨Finset.mem_univ _, (hkey _).2 ⟨cell_div hE R k, h⟩⟩
  · intro e he
    exact cell_of_div hE hA R e ((hkey e).1 (Finset.mem_filter.1 he).2).1
  · intro k hk
    exact Fin.ext (cell_mod hE R k)
  · intro e he
    rw [cell_of_div hE hA R e ((hkey e).1 (Finset.mem_filter.1 he).2).1]

end Cert.RowSegment
-- ==== Proof.LibScatterVec.lean ====
/-
  A scatter-add into a vector.

  The scatter here takes an operand of shape [N], one start index per edge (an [E, 1] array of signed words) and one
  update per edge (an [E] array): update e is added to operand element (start e) when the start index, read signed, is
  an element of the operand, and is dropped otherwise. So the scatter-add read at element n is the operand's element
  plus the sum of the updates of the edges whose start index is n.
-/
import Idealize.ShloMosaic.Lib.ValueIdx
import Idealize.ShloMosaic.Lib.Pipeline.Value
import Idealize.ShloMosaic.PureOps.Contract
import Idealize.ShloMosaic.PureOps.Ideal.Laws

noncomputable section
open scoped BigOperators
namespace Cert.ScatterVec
open Idealize.ShloMosaic Idealize.ShloMosaic.ValueIdx

variable {N E : Nat}

/-- The dimension numbers of a scatter into a vector: operand [N], start indices [E, 1], updates [E]. -/
abbrev VecScatter (N E : Nat) : Type :=
  ScatterDims (⟨1, ![N]⟩ : Shape) (⟨2, ![E, 1]⟩ : Shape) (⟨1, ![E]⟩ : Shape)

/-- The updates have no window axis, the operand's only axis is inserted and is the one the start index names, and
    the start indices' second axis holds the index vector. -/
structure IsVec (d : VecScatter N E) : Prop where
  uw : d.updateWindowDims = []
  iw : d.insertedWindowDims = [0]
  sd : d.scatterDimsToOperandDims = [0]
  iv : d.indexVectorDim = 1

/-- The operand has no axis other than the inserted one. -/
theorem kept0 : (⟨1, ![N]⟩ : Shape).kept [0] = [] := rfl

/-- The window starts at the start index read at the update's edge. -/
theorem start0 (wf) {w : Nat} (idx : IVec (⟨2, ![E, 1]⟩ : Shape) w) (j : (⟨1, ![E]⟩ : Shape).Idx) :
    (⟨[], [0], [0], 1, wf⟩ : VecScatter N E).start j idx 0 = (idx (ix2 (j 0) 0)).toInt := by
  unfold ScatterDims.start
  rw [dif_pos (List.mem_singleton.2 rfl)]
  congr 2
  funext b
  match b with
  | ⟨0, _⟩ => rfl
  | ⟨1, _⟩ => rfl

/-- The window has no extent. -/
theorem window0 (wf) (j : (⟨1, ![E]⟩ : Shape).Idx) :
    (⟨[], [0], [0], 1, wf⟩ : VecScatter N E).window j 0 = 0 := by
  unfold ScatterDims.window
  rw [dif_neg (fun h => by rw [ScatterDims.sKept, kept0] at h; exact absurd h List.not_mem_nil)]

/-- Which operand element an update lands on: the signed start index read at the update's edge. -/
theorem resultIdx?_vec (d : VecScatter N E) (hd : IsVec d) {w : Nat} (idx : IVec (⟨2, ![E, 1]⟩ : Shape) w)
    (j : (⟨1, ![E]⟩ : Shape).Idx) (n : Fin N) :
    d.resultIdx? j idx = some (ix1 n) ↔ (idx (ix2 (j 0) 0)).toInt = (n.val : Int) := by
  obtain ⟨uw, iw, sd, iv, wf⟩ := d
  obtain ⟨h1, h2, h3, h4⟩ := hd
  dsimp only at h1 h2 h3 h4
  subst h1 h2 h3 h4
  unfold ScatterDims.resultIdx?
  constructor
  · intro h
    split at h
    · rename_i hc
      have e := Option.some.inj h
      have v0 : ((⟨[], [0], [0], 1, wf⟩ : VecScatter N E).start j idx 0 + ((⟨[], [0], [0], 1, wf⟩ : VecScatter N E).window j 0 : Int)).toNat = n.val := congrArg Fin.val (congrFun e 0)
      have c0 : 0 ≤ (⟨[], [0], [0], 1, wf⟩ : VecScatter N E).start j idx 0 + ((⟨[], [0], [0], 1, wf⟩ : VecScatter N E).window j 0 : Int) ∧ (⟨[], [0], [0], 1, wf⟩ : VecScatter N E).start j idx 0 + ((⟨[], [0], [0], 1, wf⟩ : VecScatter N E).window j 0 : Int) < (N : Int) := hc 0
      rw [start0, window0] at v0 c0
      omega
    · exact absurd h (by simp)
  · intro h0
    have hc : ∀ a : Fin 1, 0 ≤ (⟨[], [0], [0], 1, wf⟩ : VecScatter N E).start j idx a + ((⟨[], [0], [0], 1, wf⟩ : VecScatter N E).window j a : Int)
        ∧ (⟨[], [0], [0], 1, wf⟩ : VecScatter N E).start j idx a + ((⟨[], [0], [0], 1, wf⟩ : VecScatter N E).window j a : Int) < ((⟨1, ![N]⟩ : Shape).size a : Int) := by
      intro a
      match a with
      | ⟨0, _⟩ =>
        show 0 ≤ (⟨[], [0], [0], 1, wf⟩ : VecScatter N E).start j idx 0 + ((⟨[], [0], [0], 1, wf⟩ : VecScatter N E).window j 0 : Int) ∧ (⟨[], [0], [0], 1, wf⟩ : VecScatter N E).start j idx 0 + ((⟨[], [0], [0], 1, wf⟩ : VecScatter N E).window j 0 : Int) < (N : Int)
        rw [start0, window0]; have := n.isLt; omega
    rw [dif_pos hc]
    congr 1
    funext a
    match a with
    | ⟨0, _⟩ =>
      apply Fin.ext
      show ((⟨[], [0], [0], 1, wf⟩ : VecScatter N E).start j idx 0 + ((⟨[], [0], [0], 1, wf⟩ : VecScatter N E).window j 0 : Int)).toNat = n.val
      rw [start0, window0]; omega

/-- A scatter-add into a vector read at one element: the operand's element plus the sum, over the edges whose start
    index is that element, of the edge's update. -/
theorem hostScatterAdd_vec (d : VecScatter N E) (hd : IsVec d) {w : Nat} (x : (⟨1, ![N]⟩ : Shape).Idx → EReal)
    (idx : IVec (⟨2, ![E, 1]⟩ : Shape) w) (upd : (⟨1, ![E]⟩ : Shape).Idx → EReal) (n : Fin N) :
    Ideal.hostScatterAdd d x idx upd (ix1 n)
      = x (ix1 n) + ∑ e ∈ Finset.univ.filter (fun e : Fin E => (idx (ix2 e 0)).toInt = (n.val : Int)), upd (ix1 e) := by
  unfold Ideal.hostScatterAdd
  congr 1
  refine Finset.sum_bij' (fun j _ => j 0) (fun e _ => ix1 e) ?_ ?_ ?_ ?_ ?_
  · intro j hj
    exact Finset.mem_filter.2 ⟨Finset.mem_univ _, (resultIdx?_vec d hd idx j n).1 (Finset.mem_filter.1 hj).2⟩
  · intro e he
    exact Finset.mem_filter.2 ⟨Finset.mem_univ _, (resultIdx?_vec d hd idx (ix1 e) n).2 (Finset.mem_filter.1 he).2⟩
  · intro j hj
    exact (eq_ix1 j).symm
  · intro e he
    rfl
  · intro j hj
    exact congrArg upd (eq_ix1 j)

end Cert.ScatterVec
-- ==== Proof.RefBins.lean ====
/-
  The two bin words of a position, read back as integers.

  From a bin position b (an extended real; here a real with 0 ≤ b ≤ 50) the program forms the 32-bit words of ⌊b⌋ and
  ⌈b⌉, then the lower-bin word (the floor's word, minus one when the ceiling's word is positive and equals the floor's)
  and the upper-bin word (the ceiling's word, plus one when the lower-bin word is below 50 and equals the ceiling's), all
  in 32-bit two's-complement arithmetic. Every integer involved lies in [-1, 51], far inside the signed 32-bit range, so
  no conversion clamps and no sum or difference wraps: read signed, the two words are the lower bin and the upper bin
  (cap 50) of b. The last fact is the flat target of an entry of row r: a word in [0, 51] plus r * 51 with r < 2^20 stays
  below 2^31, so it does not wrap either.
-/
import proofs.«121574_j38955353375480_2_alg».proof.Proof.LibHatBins
import Idealize.ShloMosaic.PureOps.Ideal
import Idealize.ShloMosaic.Lib.Affine
import Idealize.ShloMosaic.Lib.DynamicIndex

noncomputable section

namespace Cert.RefBins

open Idealize.ShloMosaic
open Cert.HatBins

/-- The lower-bin word of a bin position: the floor's word, moved down by one when the ceiling's word is positive and
    equals the floor's. -/
def lowerWord (b : EReal) : BitVec 32 :=
  Scalar.select (IntOp.andi (IntOp.cmpi .sgt (Ideal.fptosi 32 (Ideal.liftRound Int.ceil b)) 0#32) (IntOp.cmpi .eq (Ideal.fptosi 32 (Ideal.liftRound Int.floor b)) (Ideal.fptosi 32 (Ideal.liftRound Int.ceil b))))
    (IntOp.subi (Ideal.fptosi 32 (Ideal.liftRound Int.floor b)) 1#32) (Ideal.fptosi 32 (Ideal.liftRound Int.floor b))

/-- The upper-bin word of a bin position: the ceiling's word, moved up by one when the lower-bin word is below 50 and
    already equals it. -/
def upperWord (b : EReal) : BitVec 32 :=
  Scalar.select (IntOp.andi (IntOp.cmpi .slt (lowerWord b) 50#32) (IntOp.cmpi .eq (lowerWord b) (Ideal.fptosi 32 (Ideal.liftRound Int.ceil b))))
    (IntOp.addi (Ideal.fptosi 32 (Ideal.liftRound Int.ceil b)) 1#32) (Ideal.fptosi 32 (Ideal.liftRound Int.ceil b))

/-- A selection whose condition word is 1 exactly when a proposition holds is the proposition's if-then-else. -/
theorem select_of_iff {α : Type} (c : BitVec 1) (p : Prop) [Decidable p] (h : c = 1#1 ↔ p) (a b : α) :
    Scalar.select c a b = if p then a else b := by
  unfold Scalar.select
  by_cases hp : p
  · have hc : c = 1 := h.2 hp
    rw [if_pos hc, if_pos hp]
  · have hc : ¬ c = 1 := fun e => hp (h.1 e)
    rw [if_neg hc, if_neg hp]

/-- An integer strictly inside the signed 32-bit range is its own balanced remainder modulo 2^32. -/
theorem bmod_small (n : ℤ) (h1 : -2147483648 ≤ n) (h2 : n < 2147483648) : n.bmod (2 ^ 32) = n :=
  Int.bmod_eq_of_le_mul_two (by omega) (by omega)

/-- A small integer as a 32-bit word, read signed, is that integer. -/
theorem toInt_ofInt_small (n : ℤ) (h : -1 ≤ n ∧ n ≤ 51) : (BitVec.ofInt 32 n).toInt = n := by
  rw [BitVec.toInt_ofInt]; exact bmod_small n (by omega) (by omega)

/-- Converting a small integer-valued real to a signed 32-bit word gives the integer's word: rounding toward zero
    leaves an integer alone and the clamp to the 32-bit range does not bite. -/
theorem fptosi_int (n : ℤ) (h : -1 ≤ n ∧ n ≤ 51) : Ideal.fptosi 32 (((n : ℝ)) : EReal) = BitVec.ofInt 32 n := by
  have hr : (if (0 : ℝ) ≤ (n : ℝ) then ⌊(n : ℝ)⌋ else ⌈(n : ℝ)⌉) = n := by
    split_ifs
    · exact Int.floor_intCast n
    · exact Int.ceil_intCast n
  have e : Ideal.toIntClamped (-(2 ^ (32 - 1) : Nat)) ((2 ^ (32 - 1) : Nat) - 1) (((n : ℝ)) : EReal) = n := by
    rw [Ideal.toIntClamped_coe, hr]
    norm_num
    omega
  unfold Ideal.fptosi
  rw [e]

/-- Floor and ceiling of a position in [0, 50]. -/
theorem floor_ceil_range (b : ℝ) (h0 : 0 ≤ b) (h50 : b ≤ 50) : 0 ≤ ⌊b⌋ ∧ ⌊b⌋ ≤ ⌈b⌉ ∧ ⌈b⌉ ≤ 50 := by
  have h1 : ((⌊b⌋ : ℤ) : ℝ) ≤ b := Int.floor_le b
  have h3 : b ≤ ((⌈b⌉ : ℤ) : ℝ) := Int.le_ceil b
  refine ⟨Int.floor_nonneg.2 h0, by exact_mod_cast h1.trans h3, Int.ceil_le.2 (by exact_mod_cast h50)⟩

/-- Read signed, the lower-bin word is the lower bin. -/
theorem lowerWord_toInt (b : ℝ) (h0 : 0 ≤ b) (h50 : b ≤ 50) : (lowerWord ((b : ℝ) : EReal)).toInt = Cert.HatBins.lowerBin b := by
  obtain ⟨hf0, hfc, hc50⟩ := floor_ceil_range b h0 h50
  have eF : Ideal.fptosi 32 (Ideal.liftRound Int.floor ((b : ℝ) : EReal)) = BitVec.ofInt 32 ⌊b⌋ := by
    rw [Ideal.liftRound_coe]; exact fptosi_int _ ⟨by omega, by omega⟩
  have eC : Ideal.fptosi 32 (Ideal.liftRound Int.ceil ((b : ℝ) : EReal)) = BitVec.ofInt 32 ⌈b⌉ := by
    rw [Ideal.liftRound_coe]; exact fptosi_int _ ⟨by omega, by omega⟩
  have tF : (BitVec.ofInt 32 ⌊b⌋).toInt = ⌊b⌋ := toInt_ofInt_small _ ⟨by omega, by omega⟩
  have tC : (BitVec.ofInt 32 ⌈b⌉).toInt = ⌈b⌉ := toInt_ofInt_small _ ⟨by omega, by omega⟩
  have cond : IntOp.andi (IntOp.cmpi .sgt (BitVec.ofInt 32 ⌈b⌉) 0#32) (IntOp.cmpi .eq (BitVec.ofInt 32 ⌊b⌋) (BitVec.ofInt 32 ⌈b⌉)) = 1#1
      ↔ (0 < ⌈b⌉ ∧ ⌊b⌋ = ⌈b⌉) := by
    rw [IntOp.andi_eq_one, IntOp.cmpi_sgt, IntOp.cmpi_eq, tC, BitVec.toInt_zero, ← BitVec.toInt_inj, tF, tC]
  unfold lowerWord
  rw [eF, eC, select_of_iff _ _ cond]
  unfold Cert.HatBins.lowerBin
  by_cases hc : 0 < ⌈b⌉ ∧ ⌊b⌋ = ⌈b⌉
  · rw [if_pos hc, if_pos hc]
    unfold IntOp.subi
    rw [BitVec.toInt_sub, tF, BitVec.toInt_one (by omega)]
    exact bmod_small _ (by omega) (by omega)
  · rw [if_neg hc, if_neg hc]
    exact tF

/-- Read signed, the upper-bin word is the upper bin (cap 50). -/
theorem upperWord_toInt (b : ℝ) (h0 : 0 ≤ b) (h50 : b ≤ 50) : (upperWord ((b : ℝ) : EReal)).toInt = Cert.HatBins.upperBin 50 b := by
  obtain ⟨hf0, hfc, hc50⟩ := floor_ceil_range b h0 h50
  have eC : Ideal.fptosi 32 (Ideal.liftRound Int.ceil ((b : ℝ) : EReal)) = BitVec.ofInt 32 ⌈b⌉ := by
    rw [Ideal.liftRound_coe]; exact fptosi_int _ ⟨by omega, by omega⟩
  have tC : (BitVec.ofInt 32 ⌈b⌉).toInt = ⌈b⌉ := toInt_ofInt_small _ ⟨by omega, by omega⟩
  have tL := lowerWord_toInt b h0 h50
  have cond : IntOp.andi (IntOp.cmpi .slt (lowerWord ((b : ℝ) : EReal)) 50#32) (IntOp.cmpi .eq (lowerWord ((b : ℝ) : EReal)) (BitVec.ofInt 32 ⌈b⌉)) = 1#1
      ↔ (Cert.HatBins.lowerBin b < 50 ∧ Cert.HatBins.lowerBin b = ⌈b⌉) := by
    rw [IntOp.andi_eq_one, IntOp.cmpi_slt, IntOp.cmpi_eq, tL, ← BitVec.toInt_inj, tL, tC]
    have : (50#32 : BitVec 32).toInt = 50 := by decide
    rw [this]
  unfold upperWord
  rw [eC, select_of_iff _ _ cond]
  unfold Cert.HatBins.upperBin
  by_cases hc : Cert.HatBins.lowerBin b < 50 ∧ Cert.HatBins.lowerBin b = ⌈b⌉
  · rw [if_pos hc, if_pos hc]
    unfold IntOp.addi
    rw [BitVec.toInt_add, tC, BitVec.toInt_one (by omega)]
    exact bmod_small _ (by omega) (by omega)
  · rw [if_neg hc, if_neg hc]
    exact tC

/-- The lower-bin word of a position in [0, 50] lies in [0, 49]. -/
theorem lowerWord_range (b : ℝ) (h0 : 0 ≤ b) (h50 : b ≤ 50) :
    0 ≤ (lowerWord ((b : ℝ) : EReal)).toInt ∧ (lowerWord ((b : ℝ) : EReal)).toInt ≤ 49 := by
  rw [lowerWord_toInt b h0 h50]
  have h := Cert.HatBins.lowerBin_range 50 (by norm_num) b h0 (by exact_mod_cast h50)
  omega

/-- The upper-bin word of a position in [0, 50] lies in [1, 50]. -/
theorem upperWord_range (b : ℝ) (h0 : 0 ≤ b) (h50 : b ≤ 50) :
    1 ≤ (upperWord ((b : ℝ) : EReal)).toInt ∧ (upperWord ((b : ℝ) : EReal)).toInt ≤ 50 := by
  rw [upperWord_toInt b h0 h50]
  have h := Cert.HatBins.lowerBin_range 50 (by norm_num) b h0 (by exact_mod_cast h50)
  have hu := (Cert.HatBins.bins_spec 50 (by norm_num) b).1
  omega

/-- The flat target of an entry of row r: the bin word plus r * 51, with no wrap-around (r * 51 + 51 < 2^31). -/
theorem rowTarget_toInt (w : BitVec 32) (r : ℕ) (hr : r < 1048576) (hw0 : 0 ≤ w.toInt) (hw : w.toInt ≤ 51) :
    (IntOp.addi w (IntOp.muli (BitVec.ofNat 32 r) 51#32)).toInt = w.toInt + (r : ℤ) * 51 := by
  have h51 : (51#32 : BitVec 32).toInt = 51 := by decide
  have hm : (IntOp.muli (BitVec.ofNat 32 r) 51#32).toInt = (r : ℤ) * 51 := by
    unfold IntOp.muli
    rw [BitVec.toInt_mul, toInt_ofNat_of_lt (by omega), h51]
    exact bmod_small _ (by omega) (by omega)
  unfold IntOp.addi
  rw [BitVec.toInt_add, hm]
  exact bmod_small _ (by omega) (by omega)

end Cert.RefBins

end
-- ==== Proof.RefValue.lean ====
/-
  The reference program's result, entry by entry.

  The reference computes for every cell (row, atom) the atom's bin position `b`, the two neighbouring bins `l` and `u` of
  `b` as 32-bit words, the weights `p · (u - b)` and `p · (b - l)`, and adds them into a flat array of 1048576 · 51
  entries at the positions `l + row · 51` and `u + row · 51` by two scatter-adds; the flat array is then read back as
  rows of 51. Read at cell (row, bin): since both bins lie in [0, 51), a weight lands in the cell exactly when it comes
  from the same row and its bin is `bin`; so the cell holds the sum over the row's atoms of the atom's two weights
  restricted to `bin`, and those two restricted weights add up to the hat term of the atom at `bin`. On real inputs
  this is the projected distribution `Target.G`.
-/
import proofs.«121574_j38955353375480_2_alg».proof.Proof.Gen.ReferenceIdeal.Read
import proofs.«121574_j38955353375480_2_alg».proof.Proof.LibHatBins
import proofs.«121574_j38955353375480_2_alg».proof.Proof.LibRowSegment
import proofs.«121574_j38955353375480_2_alg».proof.Proof.LibScatterVec
import proofs.«121574_j38955353375480_2_alg».proof.Proof.Spec
import proofs.«121574_j38955353375480_2_alg».proof.Proof.Target
import proofs.«121574_j38955353375480_2_alg».proof.Proof.RefBins
import Idealize.ShloMosaic.PureOps.Ideal
import Idealize.ShloMosaic.Lib.Affine
import Idealize.ShloMosaic.Lib.ValueIdx
import Idealize.ShloMosaic.Lib.Pipeline.Value

noncomputable section
namespace Cert.ReferenceIdeal.HatRead
open Cert.ReferenceIdeal Cert.ReferenceIdeal.Gen Cert.ReferenceIdeal.Read Idealize.ShloMosaic Idealize.ShloMosaic.TcCoe Idealize.SL.Sem Idealize.ShloMosaic.StableHlo

variable [Cert.ReferenceIdeal.Facts]
variable (x0 : (⟨S1048576, .f32⟩ : BufTy).Contents (Elt Ideal)) (x1 : (⟨S1048576x51, .f32⟩ : BufTy).Contents (Elt Ideal))
  (x2 : (⟨S51, .f32⟩ : BufTy).Contents (Elt Ideal)) (x3 : (⟨S1048576, .i32⟩ : BufTy).Contents (Elt Ideal))

/-- The bin position of a cell: the row's reward, the row's mask and the atom's support through `binPos`. -/
theorem bin_apply (q : S1048576x51.Idx) :
    val_main_v15 (F := Ideal) x0 x2 x3 q = Spec.binPos (x0 (idx_main_v1 (idx_main_v9 q)))
      (FloatOps.sitofp (F := Ideal) .f32 (x3 (idx_main_v5 (idx_main_v7 q)))) (x2 (idx_main_v2 (idx_main_v6 q))) := by
  simp only [val_main_v0_apply, val_main_v1_apply, val_main_v2_apply, val_main_cst_apply, val_main_v3_apply, val_main_v4_apply, val_main_v5_apply, val_main_v6_apply, val_main_v7_apply, val_main_v8_apply, val_main_v9_apply, val_main_v10_apply, val_main_cst_0_apply, val_main_cst_1_apply, val_main_call0_v0_apply, val_main_call0_v1_apply, val_main_call0_v2_apply, val_main_call0_v3_apply, val_main_call0_v4_apply, val_main_v11_apply, val_main_cst_2_apply, val_main_v12_apply, val_main_v13_apply, val_main_cst_3_apply, val_main_v14_apply, val_main_v15_apply, val_main_v16_apply, val_main_v17_apply, val_main_v18_apply, val_main_v19_apply, val_main_c_apply, val_main_v20_apply, val_main_v21_apply, val_main_v22_apply, val_main_v23_apply, val_main_c_4_apply, val_main_v24_apply, val_main_v25_apply, val_main_v26_apply, val_main_c_5_apply, val_main_v27_apply, val_main_v28_apply, val_main_v29_apply, val_main_v30_apply, val_main_c_6_apply, val_main_v31_apply, val_main_v32_apply, val_main_v33_apply, val_main_v34_apply, val_main_v35_apply, val_main_v36_apply, val_main_v37_apply, val_main_v38_apply, val_main_v39_apply, val_main_v40_apply, val_main_c_7_apply, val_main_v41_apply, val_main_v42_apply, val_main_v43_apply, val_main_cst_8_apply, val_main_v44_apply, val_main_v45_apply, val_main_v46_apply, val_main_v47_apply, val_main_v48_apply, val_main_c_9_apply, val_main_v49_apply, val_main_v50_apply, val_main_c_10_apply, val_main_v51_apply, val_main_v52_apply, val_main_v53_apply, val_main_v54_apply, val_main_v56_apply, val_main_v57_apply, val_main_v58_apply, val_main_v59_apply, val_main_c_11_apply, val_main_v60_apply, val_main_v61_apply, val_main_c_12_apply, val_main_v62_apply, val_main_v63_apply, val_main_v64_apply, val_main_v65_apply, val_main_v67_apply]
  rfl

/-- The cell's lower-bin word. -/
theorem lower_apply (q : S1048576x51.Idx) :
    val_main_v26 (F := Ideal) x0 x2 x3 q = RefBins.lowerWord (val_main_v15 (F := Ideal) x0 x2 x3 q) := by
  simp only [val_main_v26_apply, val_main_v23_apply, val_main_v21_apply, val_main_v22_apply, val_main_v25_apply, val_main_v24_apply, val_main_c_4_apply, val_main_v20_apply, val_main_c_apply, val_main_v19_apply, val_main_v18_apply, val_main_v17_apply, val_main_v16_apply]
  rfl

/-- The cell's upper-bin word. -/
theorem upper_apply (q : S1048576x51.Idx) :
    val_main_v33 (F := Ideal) x0 x2 x3 q = RefBins.upperWord (val_main_v15 (F := Ideal) x0 x2 x3 q) := by
  simp only [val_main_v33_apply, val_main_v30_apply, val_main_v28_apply, val_main_v29_apply, val_main_v32_apply, val_main_v31_apply, val_main_c_6_apply, val_main_v27_apply, val_main_c_5_apply, lower_apply, val_main_v19_apply, val_main_v18_apply]
  rfl

/-- The weight a cell sends to its lower bin. -/
theorem wLower_apply (q : S1048576x51.Idx) :
    val_main_v36 (F := Ideal) x0 x1 x2 x3 q
      = x1 q * (((((RefBins.upperWord (val_main_v15 (F := Ideal) x0 x2 x3 q)).toInt : ℤ) : ℝ) : EReal) - val_main_v15 (F := Ideal) x0 x2 x3 q) := by
  simp only [val_main_v36_apply, val_main_v35_apply, val_main_v34_apply, upper_apply]
  rfl

/-- The weight a cell sends to its upper bin. -/
theorem wUpper_apply (q : S1048576x51.Idx) :
    val_main_v39 (F := Ideal) x0 x1 x2 x3 q
      = x1 q * (val_main_v15 (F := Ideal) x0 x2 x3 q - ((((RefBins.lowerWord (val_main_v15 (F := Ideal) x0 x2 x3 q)).toInt : ℤ) : ℝ) : EReal)) := by
  simp only [val_main_v39_apply, val_main_v38_apply, val_main_v37_apply, lower_apply]
  rfl

/-- The cell of a flat position: row `e / 51`, atom `e % 51`. -/
abbrev cellOf (e : Fin 53477376) : S1048576x51.Idx := fun a => match a with
  | ⟨0, _⟩ => ⟨e.val / 51, by have := e.isLt; show e.val / 51 < 1048576; omega⟩
  | ⟨1, _⟩ => ⟨e.val % 51, by show e.val % 51 < 51; omega⟩

/-- jax's index normalisation leaves a non-negative index alone. -/
theorem wrap_of_nonneg (T : BitVec 32) (h : 0 ≤ T.toInt) :
    Scalar.select (IntOp.cmpi .slt T 0#32) (IntOp.addi T 53477376#32) T = T := by
  unfold Scalar.select
  rw [if_neg]
  intro hc
  have h1 := IntOp.cmpi_slt.1 hc
  rw [BitVec.toInt_zero] at h1
  omega

/-- The flat position a cell's lower-bin weight is sent to: the lower-bin word plus the row's offset. -/
theorem tgtLower_eq (e : Fin 53477376) :
    val_main_v54 (F := Ideal) x0 x2 x3 (ValueIdx.ix2 e 0)
      = Scalar.select (IntOp.cmpi .slt (IntOp.addi (RefBins.lowerWord (val_main_v15 (F := Ideal) x0 x2 x3 (cellOf e))) (IntOp.muli (BitVec.ofNat 32 (e.val / 51)) 51#32)) 0#32)
          (IntOp.addi (IntOp.addi (RefBins.lowerWord (val_main_v15 (F := Ideal) x0 x2 x3 (cellOf e))) (IntOp.muli (BitVec.ofNat 32 (e.val / 51)) 51#32)) 53477376#32)
          (IntOp.addi (RefBins.lowerWord (val_main_v15 (F := Ideal) x0 x2 x3 (cellOf e))) (IntOp.muli (BitVec.ofNat 32 (e.val / 51)) 51#32)) := by
  simp only [val_main_v54_apply, val_main_v53_apply, val_main_v50_apply, val_main_v52_apply, val_main_v47_apply, val_main_v46_apply, val_main_v45_apply, val_main_v43_apply, val_main_v42_apply, val_main_v40_apply, val_main_v41_apply, val_main_c_7_apply, val_main_v49_apply, val_main_c_9_apply, val_main_v51_apply, val_main_c_10_apply, lower_apply]
  rfl

/-- The flat position a cell's upper-bin weight is sent to. -/
theorem tgtUpper_eq (e : Fin 53477376) :
    val_main_v65 (F := Ideal) x0 x2 x3 (ValueIdx.ix2 e 0)
      = Scalar.select (IntOp.cmpi .slt (IntOp.addi (RefBins.upperWord (val_main_v15 (F := Ideal) x0 x2 x3 (cellOf e))) (IntOp.muli (BitVec.ofNat 32 (e.val / 51)) 51#32)) 0#32)
          (IntOp.addi (IntOp.addi (RefBins.upperWord (val_main_v15 (F := Ideal) x0 x2 x3 (cellOf e))) (IntOp.muli (BitVec.ofNat 32 (e.val / 51)) 51#32)) 53477376#32)
          (IntOp.addi (RefBins.upperWord (val_main_v15 (F := Ideal) x0 x2 x3 (cellOf e))) (IntOp.muli (BitVec.ofNat 32 (e.val / 51)) 51#32)) := by
  simp only [val_main_v65_apply, val_main_v64_apply, val_main_v61_apply, val_main_v63_apply, val_main_v58_apply, val_main_v57_apply, val_main_v56_apply, val_main_v43_apply, val_main_v42_apply, val_main_v40_apply, val_main_v41_apply, val_main_c_7_apply, val_main_v60_apply, val_main_c_11_apply, val_main_v62_apply, val_main_c_12_apply, upper_apply]
  rfl

/-- With the bin position a real in [0, 50], the lower-bin weight of flat position `e` goes to flat position
    `lowerBin + (e / 51) * 51`. -/
theorem tgtLower_toInt (e : Fin 53477376) (bR : ℝ) (hb : val_main_v15 (F := Ideal) x0 x2 x3 (cellOf e) = ((bR : ℝ) : EReal))
    (h0 : 0 ≤ bR) (h50 : bR ≤ 50) :
    (val_main_v54 (F := Ideal) x0 x2 x3 (ValueIdx.ix2 e 0)).toInt = Cert.HatBins.lowerBin bR + ((e.val / 51 : ℕ) : ℤ) * 51 := by
  have hr := RefBins.lowerWord_range bR h0 h50
  have ht := RefBins.rowTarget_toInt (RefBins.lowerWord ((bR : ℝ) : EReal)) (e.val / 51) (by have := e.isLt; omega) hr.1 (by omega)
  rw [tgtLower_eq, hb, wrap_of_nonneg _ (by rw [ht]; have := hr.1; positivity), ht, RefBins.lowerWord_toInt bR h0 h50]

/-- Likewise the upper-bin weight goes to flat position `upperBin + (e / 51) * 51`. -/
theorem tgtUpper_toInt (e : Fin 53477376) (bR : ℝ) (hb : val_main_v15 (F := Ideal) x0 x2 x3 (cellOf e) = ((bR : ℝ) : EReal))
    (h0 : 0 ≤ bR) (h50 : bR ≤ 50) :
    (val_main_v65 (F := Ideal) x0 x2 x3 (ValueIdx.ix2 e 0)).toInt = Cert.HatBins.upperBin 50 bR + ((e.val / 51 : ℕ) : ℤ) * 51 := by
  have hr := RefBins.upperWord_range bR h0 h50
  have ht := RefBins.rowTarget_toInt (RefBins.upperWord ((bR : ℝ) : EReal)) (e.val / 51) (by have := e.isLt; omega) (by omega) (by omega)
  rw [tgtUpper_eq, hb, wrap_of_nonneg _ (by rw [ht]; have := hr.1; positivity), ht, RefBins.upperWord_toInt bR h0 h50]

section Reals
open scoped BigOperators

/-- An extended real that is a real is the coercion of its real part. -/
theorem coe_toReal_of_real {x : EReal} (h : ∃ r : ℝ, x = ((r : ℝ) : EReal)) : x = ((x.toReal : ℝ) : EReal) := by
  obtain ⟨r, rfl⟩ := h
  rw [EReal.toReal_coe]

theorem flatLen : (53477376 : ℕ) = 1048576 * 51 := by norm_num

theorem scatter_isVec :
    Cert.ScatterVec.IsVec (N := 53477376) (E := 53477376) scatter_S53477376_S53477376x1_S53477376_n_0_0_1 :=
  ⟨rfl, rfl, rfl, rfl⟩

theorem cellOf_cell (i : S1048576x51.Idx) (k : Fin 51) :
    cellOf (Cert.RowSegment.cell (B := 1048576) (A := 51) flatLen ⟨(i 0).val, (i 0).isLt⟩ k) = Cert.Target.cellIdx i k := by
  funext a
  match a with
  | ⟨0, _⟩ => exact Fin.ext (by show ((i 0).val * 51 + k.val) / 51 = (i 0).val; have := k.isLt; omega)
  | ⟨1, _⟩ => exact Fin.ext (by show ((i 0).val * 51 + k.val) % 51 = k.val; have := k.isLt; omega)

theorem flat_cell (i : S1048576x51.Idx) (k : Fin 51) :
    ValueIdx.ix1 (Cert.RowSegment.cell (B := 1048576) (A := 51) flatLen ⟨(i 0).val, (i 0).isLt⟩ k) = idx_main_v67 (Cert.Target.cellIdx i k) := by
  funext a
  match a with
  | ⟨0, _⟩ => rfl

/-- One scatter-add of per-cell updates, each sent to `off cell + row * 51` with `0 ≤ off < 51`, read at the flat
    position of cell `i`: the operand there plus the updates of the cells of `i`'s row whose offset is `i`'s atom. -/
theorem scatter_row (base : FVec Ideal S53477376 .f32) (idx : IVec S53477376x1 32) (upd : FVec Ideal S53477376 .f32)
    (off : S1048576x51.Idx → ℤ) (hoff : ∀ q, 0 ≤ off q ∧ off q < 51)
    (htgt : ∀ e : Fin 53477376, (idx (ValueIdx.ix2 e 0)).toInt = off (cellOf e) + ((e.val / 51 : ℕ) : ℤ) * 51)
    (i : S1048576x51.Idx) :
    Host.scatterAdd (F := Ideal) scatter_S53477376_S53477376x1_S53477376_n_0_0_1 base idx upd (idx_main_v67 i)
      = base (idx_main_v67 i) + ∑ k : Fin 51, if off (Cert.Target.cellIdx i k) = (((i 1).val : ℕ) : ℤ)
          then upd (idx_main_v67 (Cert.Target.cellIdx i k)) else 0 := by
  have hrow := Cert.RowSegment.sum_filter_rows (B := 1048576) (A := 51) flatLen (fun e : Fin 53477376 => (upd (ValueIdx.ix1 e) : EReal))
    (fun e => (idx (ValueIdx.ix2 e 0)).toInt) (fun e => off (cellOf e))
    (fun e => (htgt e).trans (by norm_num)) (fun e => by have := hoff (cellOf e); norm_num; exact this)
    ⟨(i 0).val, (i 0).isLt⟩ ⟨(i 1).val, (i 1).isLt⟩ ((((idx_main_v67 i) 0).val : ℕ) : ℤ)
    (by show ((((i 0).val * 51 + (i 1).val : ℕ)) : ℤ) = _; push_cast; ring)
  rw [ValueIdx.eq_ix1 (idx_main_v67 i)]
  show Ideal.hostScatterAdd scatter_S53477376_S53477376x1_S53477376_n_0_0_1 base idx upd (ValueIdx.ix1 ((idx_main_v67 i) 0)) = _
  rw [Cert.ScatterVec.hostScatterAdd_vec _ scatter_isVec base idx upd ((idx_main_v67 i) 0)]
  refine congrArg (fun s : EReal => base (ValueIdx.ix1 ((idx_main_v67 i) 0)) + s) ?_
  refine hrow.trans (Finset.sum_congr rfl fun k _ => ?_)
  rw [cellOf_cell i k, flat_cell i k]

end Reals

section Value
open scoped BigOperators

variable (hx0 : ∀ i, ∃ r : ℝ, x0 i = ((r : ℝ) : EReal)) (hx1 : ∀ i, ∃ r : ℝ, x1 i = ((r : ℝ) : EReal))
  (hx2 : ∀ i, ∃ r : ℝ, x2 i = ((r : ℝ) : EReal))

/-- The real bin position of a cell, from the real parts of the row's reward and the atom's support. -/
def binR (q : S1048576x51.Idx) : ℝ :=
  Spec.binPosR (x0 (idx_main_v1 (idx_main_v9 q))).toReal ((((x3 (idx_main_v5 (idx_main_v7 q))).toInt : ℤ)) : ℝ)
    (x2 (idx_main_v2 (idx_main_v6 q))).toReal

include hx0 hx2 in
/-- On real inputs the bin position of every cell is that real. -/
theorem bin_real (q : S1048576x51.Idx) :
    val_main_v15 (F := Ideal) x0 x2 x3 q = ((binR x0 x2 x3 q : ℝ) : EReal) := by
  rw [bin_apply]
  unfold binR
  rw [← Spec.binPos_coe, ← coe_toReal_of_real (hx0 _), ← coe_toReal_of_real (hx2 _)]
  rfl

theorem unflat48 (q : S1048576x51.Idx) : idx_main_v48 (idx_main_v67 q) = q := by
  funext a
  match a with
  | ⟨0, _⟩ => exact Fin.ext (by show ((q 0).val * 51 + (q 1).val) / 51 = (q 0).val; have := (q 1).isLt; have h : (q 1).val < 51 := this; omega)
  | ⟨1, _⟩ => exact Fin.ext (by show ((q 0).val * 51 + (q 1).val) % 51 = (q 1).val; have := (q 1).isLt; have h : (q 1).val < 51 := this; omega)

theorem unflat59 (q : S1048576x51.Idx) : idx_main_v59 (idx_main_v67 q) = q := by
  funext a
  match a with
  | ⟨0, _⟩ => exact Fin.ext (by show ((q 0).val * 51 + (q 1).val) / 51 = (q 0).val; have := (q 1).isLt; have h : (q 1).val < 51 := this; omega)
  | ⟨1, _⟩ => exact Fin.ext (by show ((q 0).val * 51 + (q 1).val) % 51 = (q 1).val; have := (q 1).isLt; have h : (q 1).val < 51 := this; omega)

theorem ite_coe (c : Prop) [Decidable c] (a : ℝ) :
    (if c then ((a : ℝ) : EReal) else 0) = (((if c then a else 0 : ℝ)) : EReal) := by
  split_ifs <;> simp

include hx0 hx1 hx2 in
/-- One cell's two weights, read at bin `j`, are the cell's hat term at `j`. -/
theorem atom_eq (q : S1048576x51.Idx) (j : ℕ) :
    (if Cert.HatBins.lowerBin (binR x0 x2 x3 q) = ((j : ℕ) : ℤ) then val_main_v48 (F := Ideal) x0 x1 x2 x3 (idx_main_v67 q) else 0)
      + (if Cert.HatBins.upperBin 50 (binR x0 x2 x3 q) = ((j : ℕ) : ℤ) then val_main_v59 (F := Ideal) x0 x1 x2 x3 (idx_main_v67 q) else 0)
      = Spec.hatTerm (x1 q) (val_main_v15 (F := Ideal) x0 x2 x3 q) (((j : ℝ)) : EReal) := by
  have hb := bin_real x0 x2 x3 hx0 hx2 q
  have hr := Spec.binPosR_range (x0 (idx_main_v1 (idx_main_v9 q))).toReal ((((x3 (idx_main_v5 (idx_main_v7 q))).toInt : ℤ)) : ℝ) (x2 (idx_main_v2 (idx_main_v6 q))).toReal
  have h0 : 0 ≤ binR x0 x2 x3 q := hr.1
  have h50 : binR x0 x2 x3 q ≤ 50 := hr.2
  rw [val_main_v48_apply, val_main_v59_apply, unflat48, unflat59, wLower_apply, wUpper_apply, hb,
    RefBins.upperWord_toInt _ h0 h50, RefBins.lowerWord_toInt _ h0 h50, coe_toReal_of_real (hx1 q),
    ← EReal.coe_sub, ← EReal.coe_mul, ← EReal.coe_sub, ← EReal.coe_mul, ite_coe, ite_coe, ← EReal.coe_add,
    Cert.HatBins.hat_split 50 (by norm_num), Spec.hatTerm_coe]
  norm_num

end Value

section Final
open scoped BigOperators

variable (hx0 : ∀ i, ∃ r : ℝ, x0 i = ((r : ℝ) : EReal)) (hx1 : ∀ i, ∃ r : ℝ, x1 i = ((r : ℝ) : EReal))
  (hx2 : ∀ i, ∃ r : ℝ, x2 i = ((r : ℝ) : EReal))

include hx0 hx1 hx2 in
/-- On real inputs the reference's result is the projected distribution `G`, entry by entry: each of the two
    scatter-adds, read at a cell, collects the weights of the cells of the same row whose bin is the cell's atom, and the
    two weights of one source cell are that cell's hat term. -/
theorem ref_apply (i : S1048576x51.Idx) :
    val_main_v67 (F := Ideal) x0 x1 x2 x3 i = Cert.Target.G x0 x1 x2 x3 i := by
  have hrange : ∀ q, 0 ≤ binR x0 x2 x3 q ∧ binR x0 x2 x3 q ≤ 50 := fun q =>
    Spec.binPosR_range (x0 (idx_main_v1 (idx_main_v9 q))).toReal ((((x3 (idx_main_v5 (idx_main_v7 q))).toInt : ℤ)) : ℝ) (x2 (idx_main_v2 (idx_main_v6 q))).toReal
  have hoffL : ∀ q, 0 ≤ Cert.HatBins.lowerBin (binR x0 x2 x3 q) ∧ Cert.HatBins.lowerBin (binR x0 x2 x3 q) < 51 := fun q => by
    have h := Cert.HatBins.lowerBin_range 50 (by norm_num) _ (hrange q).1 (by exact_mod_cast (hrange q).2)
    omega
  have hoffU : ∀ q, 0 ≤ Cert.HatBins.upperBin 50 (binR x0 x2 x3 q) ∧ Cert.HatBins.upperBin 50 (binR x0 x2 x3 q) < 51 := fun q => by
    have h := Cert.HatBins.lowerBin_range 50 (by norm_num) _ (hrange q).1 (by exact_mod_cast (hrange q).2)
    have hu := (Cert.HatBins.bins_spec 50 (by norm_num) (binR x0 x2 x3 q)).1
    omega
  have htgtL : ∀ e : Fin 53477376, (val_main_v54 (F := Ideal) x0 x2 x3 (ValueIdx.ix2 e 0)).toInt
      = Cert.HatBins.lowerBin (binR x0 x2 x3 (cellOf e)) + ((e.val / 51 : ℕ) : ℤ) * 51 := fun e =>
    tgtLower_toInt x0 x2 x3 e _ (bin_real x0 x2 x3 hx0 hx2 (cellOf e)) (hrange _).1 (hrange _).2
  have htgtU : ∀ e : Fin 53477376, (val_main_v65 (F := Ideal) x0 x2 x3 (ValueIdx.ix2 e 0)).toInt
      = Cert.HatBins.upperBin 50 (binR x0 x2 x3 (cellOf e)) + ((e.val / 51 : ℕ) : ℤ) * 51 := fun e =>
    tgtUpper_toInt x0 x2 x3 e _ (bin_real x0 x2 x3 hx0 hx2 (cellOf e)) (hrange _).1 (hrange _).2
  have hz : val_main_v44 (F := Ideal) (idx_main_v67 i) = 0 := by
    rw [val_main_v44_apply, val_main_cst_8_apply]
    exact Consts.ofBits_zero
  rw [val_main_v67_apply]
  unfold val_main_v66
  rw [scatter_row (val_main_v55 (F := Ideal) x0 x1 x2 x3) (val_main_v65 (F := Ideal) x0 x2 x3) (val_main_v59 (F := Ideal) x0 x1 x2 x3)
    (fun q => Cert.HatBins.upperBin 50 (binR x0 x2 x3 q)) hoffU htgtU i]
  unfold val_main_v55
  rw [scatter_row (val_main_v44 (F := Ideal)) (val_main_v54 (F := Ideal) x0 x2 x3) (val_main_v48 (F := Ideal) x0 x1 x2 x3)
    (fun q => Cert.HatBins.lowerBin (binR x0 x2 x3 q)) hoffL htgtL i]
  rw [hz, zero_add, ← Finset.sum_add_distrib]
  unfold Cert.Target.G
  refine Finset.sum_congr rfl fun k _ => ?_
  rw [atom_eq x0 x1 x2 x3 hx0 hx1 hx2 (Cert.Target.cellIdx i k) (i 1).val, bin_apply]
  rfl

end Final

end Cert.ReferenceIdeal.HatRead
end
-- ==== Proof.lean ====
/-
  The projection of a categorical value distribution onto a fixed support of 51 atoms, two ways.

  For every row of a batch the inputs give a reward, a mask, a probability for each of 51 atoms, and the atoms' supports.
  Atom `k` of a row moves to the bin position  b = (clamp(reward + (discount · support k) · mask, -10, 10) + 10) / width ,
  a real in [0, 50] when the inputs are finite, and its probability `p` is shared between the two bins next to `b`.

  The kernel computes, for every target bin `j`, the sum over the atoms of  p · max 0 (1 - |b - j|)  (the hat function).
  The reference computes the two neighbouring bins `l` and `u` of `b` by floor and ceiling with a tie-break at integers,
  the weights  p · (u - b)  and  p · (b - l) , and adds them into bins `l` and `u` of the row by two scatter-adds into a
  flat array. Since  u = l + 1  and  l ≤ b ≤ l + 1  in every case, the two weights are the hat function at `l` and at `u`,
  and the hat function vanishes at every other integer (LibHatBins); a weight lands in a cell exactly when it comes from the
  cell's row and its bin is the cell's (LibRowSegment, LibScatterVec, RefBins); so both programs end holding the same
  function `Target.G` of the four argument arrays, entry by entry, as extended reals (RefValue for the reference, KernelBlock
  and KernelArray for the kernel). Finiteness of the float inputs (Finite) is what makes the bin positions reals, so that
  floor, ceiling and the conversions to 32-bit integers are the exact ones. The ideal pass rewrote nothing, so the kernel's
  idealization is the kernel's own text; the three frames are the programs' runs with the result dropped.
-/
import proofs.«121574_j38955353375480_2_alg».proof.Defs
import proofs.«121574_j38955353375480_2_alg».proof.Proof.Gen.Kernel
import proofs.«121574_j38955353375480_2_alg».proof.Proof.Gen.Kernel.Skeleton
import proofs.«121574_j38955353375480_2_alg».proof.Proof.Gen.Kernel.Launch
import proofs.«121574_j38955353375480_2_alg».proof.Proof.Gen.Kernel.Points
import proofs.«121574_j38955353375480_2_alg».proof.Proof.PatchedKernelFrame
import proofs.«121574_j38955353375480_2_alg».proof.Proof.Gen.KernelIdeal
import proofs.«121574_j38955353375480_2_alg».proof.Proof.Gen.KernelIdeal.Skeleton
import proofs.«121574_j38955353375480_2_alg».proof.Proof.Gen.KernelIdeal.Launch
import proofs.«121574_j38955353375480_2_alg».proof.Proof.Gen.KernelIdeal.Points
import proofs.«121574_j38955353375480_2_alg».proof.Proof.PatchedKernelIdealFrame
import proofs.«121574_j38955353375480_2_alg».proof.Proof.Gen.ReferenceIdeal
import proofs.«121574_j38955353375480_2_alg».proof.Proof.Gen.Pre_finite_inputs
import proofs.«121574_j38955353375480_2_alg».proof.Proof.Gen.ReferenceIdeal.Run
import proofs.«121574_j38955353375480_2_alg».proof.Proof.Gen.ReferenceIdeal.Read
import proofs.«121574_j38955353375480_2_alg».proof.Proof.Finite
import proofs.«121574_j38955353375480_2_alg».proof.Proof.KernelArray
import proofs.«121574_j38955353375480_2_alg».proof.Proof.RefValue
import Idealize.ShloMosaic.Adequacy
import Idealize.ShloMosaic.Init

noncomputable section

namespace Cert.Proof

open Idealize.ShloMosaic Idealize.SL.Sem

/-- The printed kernel runs and leaves its arguments unchanged. -/
theorem frame_kernel : Cert.frame_Kernel := fun m ρ _ => Cert.Kernel.GenP.frame m ρ

/-- So does the kernel read exactly. -/
theorem frame_kernelIdeal : Cert.frame_KernelIdeal := fun m ρ _ => Cert.KernelIdeal.GenP.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Read exactly, from memories agreeing on the finite arguments, both programs end with the projected distribution
    of the arguments in their result. -/
theorem algebraic : Cert.algebraic_KernelIdeal_ReferenceIdeal := by
  intro m ρ m' ρ' hpre hagree
  refine ⟨fun c => Cert.Target.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    Cert.KernelIdeal.HatValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := Cert.Finite.real_inputs _ _ _ _ (hpre c)
  rw [Cert.ReferenceIdeal.Read.val_main_v67_eq, (hagree c).1, (hagree c).2.1, (hagree c).2.2.1, (hagree c).2.2.2]
  funext i
  exact Cert.ReferenceIdeal.HatRead.ref_apply _ _ _ _ h0 h1 h2 i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
